-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S8x2048x2048 : Shape := ⟨3, ![8, 2048, 2048]⟩
abbrev S8x1x2048 : Shape := ⟨3, ![8, 1, 2048]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S8x1x2048 : S_.BroadcastsInDim S8x1x2048 (![] : Fin 0 → Fin S8x1x2048.rank)
  reducesTo_S8x1x2048_S_d0_1_2 : S8x1x2048.ReducesTo [0, 1, 2] S_

variable [Facts]

def fn_part1 {F : FTy → Type} [FloatOps F] (main_arg4 : FVec F S8x1x2048 .f32) (main_arg5 : FVec F S8x2048x2048 .f32) (main_arg6 : FVec F S8x1x2048 .f32) (main_v13 : IVec S_ 1) (main_v16 : IVec S8x1x2048 1) : IVec S_ 1 :=
  let main_c_5 : IVec S_ 1 := constantI S_ 1 1#1
  let main_v17 : IVec S_ 1 := (fun x v => Host.reduce IntOp.andi x v reducesTo_S8x1x2048_S_d0_1_2 h_S_) main_v16 main_c_5
  let main_v18 : IVec S_ 1 := andi main_v13 main_v17
  let main_v19 : FVec F S8x1x2048 .f32 := Host.absf main_arg4
  let main_cst_6 : FVec F S_ .f32 := constant S_ .f32 0x7F800000#32
  let main_v20 : FVec F S8x1x2048 .f32 := broadcastInDim S8x1x2048 ![] bcast_S_S8x1x2048 main_cst_6
  let main_v21 : IVec S8x1x2048 1 := cmpf .olt main_v19 main_v20
  let main_c_7 : IVec S_ 1 := constantI S_ 1 1#1
  let main_v22 : IVec S_ 1 := (fun x v => Host.reduce IntOp.andi x v reducesTo_S8x1x2048_S_d0_1_2 h_S_) main_v21 main_c_7
  let main_v23 : IVec S_ 1 := andi main_v18 main_v22
  let main_v24 : FVec F S8x2048x2048 .f32 := Host.absf main_arg5
  let main_cst_8 : FVec F S_ .f32 := constant S_ .f32 0x7F800000#32
  let main_v25 : FVec F S8x2048x2048 .f32 := broadcastInDim S8x2048x2048 ![] bcast_S_S8x2048x2048 main_cst_8
  let main_v26 : IVec S8x2048x2048 1 := cmpf .olt main_v24 main_v25
  let main_c_9 : IVec S_ 1 := constantI S_ 1 1#1
  let main_v27 : IVec S_ 1 := (fun x v => Host.reduce IntOp.andi x v reducesTo_S8x2048x2048_S_d0_1_2 h_S_) main_v26 main_c_9
  let main_v28 : IVec S_ 1 := andi main_v23 main_v27
  let main_v29 : FVec F S8x1x2048 .f32 := Host.absf main_arg6
  let main_cst_10 : FVec F S_ .f32 := constant S_ .f32 0x7F800000#32
  let main_v30 : FVec F S8x1x2048 .f32 := broadcastInDim S8x1x2048 ![] bcast_S_S8x1x2048 main_cst_10
  let main_v31 : IVec S8x1x2048 1 := cmpf .olt main_v29 main_v30
  let main_c_11 : IVec S_ 1 := constantI S_ 1 1#1
  let main_v32 : IVec S_ 1 := (fun x v => Host.reduce IntOp.andi x v reducesTo_S8x1x2048_S_d0_1_2 h_S_) main_v31 main_c_11
  let main_v33 : IVec S_ 1 := andi main_v28 main_v32
  main_v33

def fn {F : FTy → Type} [FloatOps F] (main_arg0 : FVec F S8x4096x2048 .f32) (main_arg1 : FVec F S8x2048x2048 .f32) (main_arg2 : FVec F S8x2048x2048 .f32) (main_arg3 : FVec F S8x1x2048 .f32) (main_arg4 : FVec F S8x1x2048 .f32) (main_arg5 : FVec F S8x2048x2048 .f32) (main_arg6 : FVec F S8x1x2048 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S8x2048x2048 .f32 := Host.absf main_arg2
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  let main_v14 : FVec F S8x1x2048 .f32 := Host.absf main_arg3
  let main_cst_4 : FVec F S_ .f32 := constant S_ .f32 0x7F800000#32
  let main_v15 : FVec F S8x1x2048 .f32 := broadcastInDim S8x1x2048 ![] bcast_S_S8x1x2048 main_cst_4
  let main_v16 : IVec S8x1x2048 1 := cmpf .olt main_v14 main_v15
  fn_part1 (F := F) main_arg4 main_arg5 main_arg6 main_v13 main_v16
-- ==== Kernel.lean ====
abbrev S8x4096x2048 : Shape := ⟨3, ![8, 4096, 2048]⟩
abbrev S8x2048x2048 : Shape := ⟨3, ![8, 2048, 2048]⟩
abbrev S8x1x2048 : Shape := ⟨3, ![8, 1, 2048]⟩
abbrev S1x1024x1024 : Shape := ⟨3, ![1, 1024, 1024]⟩
abbrev S1024x1024 : Shape := ⟨2, ![1024, 1024]⟩
abbrev S1x256x2048 : Shape := ⟨3, ![1, 256, 2048]⟩
abbrev S1x2048x2048 : Shape := ⟨3, ![1, 2048, 2048]⟩
abbrev S1x1x2048 : Shape := ⟨3, ![1, 1, 2048]⟩
abbrev S1x2048 : Shape := ⟨2, ![1, 2048]⟩
abbrev S256x2048 : Shape := ⟨2, ![256, 2048]⟩
abbrev S2048x2048 : Shape := ⟨2, ![2048, 2048]⟩

abbrev nBuf : Space → Nat
  | .hbm => 9
  | .vmem => 21
  | .smem => 0
  | _ => 0

abbrev bufTy : (tb : Table) → Fin (tcTables nBuf tb) → BufTy
  | .hbm, ⟨0, _⟩ => ⟨S8x4096x2048, .f32⟩
  | .hbm, ⟨1, _⟩ => ⟨S8x2048x2048, .f32⟩
  | .hbm, ⟨2, _⟩ => ⟨S8x2048x2048, .f32⟩
  | .hbm, ⟨3, _⟩ => ⟨S8x1x2048, .f32⟩
  | .hbm, ⟨4, _⟩ => ⟨S8x1x2048, .f32⟩
  | .hbm, ⟨5, _⟩ => ⟨S8x2048x2048, .f32⟩
  | .hbm, ⟨6, _⟩ => ⟨S8x1x2048, .f32⟩
  | .hbm, ⟨7, _⟩ => ⟨S8x2048x2048, .bf16⟩
  | .hbm, ⟨8, _⟩ => ⟨S8x4096x2048, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x256x2048, .f32⟩
  | .local _ .vmem, ⟨9, _⟩ => ⟨S1x256x2048, .f32⟩
  | .local _ .vmem, ⟨10, _⟩ => ⟨S1x2048x2048, .bf16⟩
  | .local _ .vmem, ⟨11, _⟩ => ⟨S1x2048x2048, .bf16⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x1x2048, .f32⟩
  | .local _ .vmem, ⟨18, _⟩ => ⟨S1x256x2048, .f32⟩
  | .local _ .vmem, ⟨19, _⟩ => ⟨S1x256x2048, .f32⟩
  | .local _ .vmem, ⟨20, _⟩ => ⟨S1x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨3, ![8, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev grid1 : Pipeline.Grid := ⟨2, ![8, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  broadcasts_S1x2048_S256x2048 : S1x2048.Broadcasts S256x2048
  shapeCasts_S256x2048_S1x256x2048 : S256x2048.ShapeCasts S1x256x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x2048.size a
  hwx0_0 : ∀ i : grid0.Coords, EltTy.bits .f32 = 32 ∨ (Rect.block (s := S8x2048x2048) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x2048x2048.size a
  hwx0_1 : ∀ i : grid0.Coords, EltTy.bits .f32 = 32 ∨ (Rect.block (s := S8x2048x2048) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x2048x2048.size a
  hwx0_2 : ∀ i : grid0.Coords, EltTy.bits .f32 = 32 ∨ (Rect.block (s := S8x2048x2048) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x2048x2048.size a
  hwx0_3 : ∀ i : grid0.Coords, EltTy.bits .bf16 = 32 ∨ (Rect.block (s := S8x2048x2048) S1x1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x2048.size a ≤ S8x4096x2048.size a
  hwx1_0 : ∀ i : grid1.Coords, EltTy.bits .f32 = 32 ∨ (Rect.block (s := S8x4096x2048) S1x256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x2048.size a ≤ S8x2048x2048.size a
  hwx1_1 : ∀ i : grid1.Coords, EltTy.bits .bf16 = 32 ∨ (Rect.block (s := S8x2048x2048) S1x2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048.size a ≤ S8x1x2048.size a
  hwx1_2 : ∀ i : grid1.Coords, EltTy.bits .f32 = 32 ∨ (Rect.block (s := S8x1x2048) S1x1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x2048.size a ≤ S8x1x2048.size a
  hwx1_3 : ∀ i : grid1.Coords, EltTy.bits .f32 = 32 ∨ (Rect.block (s := S8x1x2048) S1x1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x2048.size a ≤ S8x1x2048.size a
  hwx1_4 : ∀ i : grid1.Coords, EltTy.bits .f32 = 32 ∨ (Rect.block (s := S8x1x2048) S1x1x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x2048.size a ≤ S8x4096x2048.size a
  hwx1_5 : ∀ i : grid1.Coords, EltTy.bits .f32 = 32 ∨ (Rect.block (s := S8x4096x2048) S1x256x2048.size (cc1_transform_5 i) (hinb1_5 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x2048x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S1x1x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S1x1x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1) S1x256x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x4096x2048 : Shape := ⟨3, ![8, 4096, 2048]⟩
abbrev S8x2048x2048 : Shape := ⟨3, ![8, 2048, 2048]⟩
abbrev S8x1x2048 : Shape := ⟨3, ![8, 1, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x2048x2048, .f32⟩
  | .hbm, ⟨2, _⟩ => ⟨S8x2048x2048, .f32⟩
  | .hbm, ⟨3, _⟩ => ⟨S8x1x2048, .f32⟩
  | .hbm, ⟨4, _⟩ => ⟨S8x1x2048, .f32⟩
  | .hbm, ⟨5, _⟩ => ⟨S8x2048x2048, .f32⟩
  | .hbm, ⟨6, _⟩ => ⟨S8x1x2048, .f32⟩
  | .hbm, ⟨7, _⟩ => ⟨S_, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S8x2048x2048, .i1⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x1x2048, .f32⟩
  | .hbm, ⟨25, _⟩ => ⟨S8x1x2048, .f32⟩
  | .hbm, ⟨26, _⟩ => ⟨S8x1x2048, .f32⟩
  | .hbm, ⟨27, _⟩ => ⟨S8x1x2048, .f32⟩
  | .hbm, ⟨28, _⟩ => ⟨S8x1x2048, .i1⟩
  | .hbm, ⟨29, _⟩ => ⟨S8x1x2048, .f32⟩
  | .hbm, ⟨30, _⟩ => ⟨S8x1x2048, .f32⟩
  | .hbm, ⟨31, _⟩ => ⟨S8x1x2048, .f32⟩
  | .hbm, ⟨32, _⟩ => ⟨S8x1x2048, .f32⟩
  | .hbm, ⟨33, _⟩ => ⟨S8x1x2048, .f32⟩
  | .hbm, ⟨34, _⟩ => ⟨S8x1x2048, .f32⟩
  | .hbm, ⟨35, _⟩ => ⟨S8x1x2048, .f32⟩
  | .hbm, ⟨36, _⟩ => ⟨S8x1x2048, .f32⟩
  | .hbm, ⟨37, _⟩ => ⟨S8x1x2048, .f32⟩
  | .hbm, ⟨38, _⟩ => ⟨S8x1x2048, .f32⟩
  | .hbm, ⟨39, _⟩ => ⟨S8x4096x2048, .f32⟩
  | .hbm, ⟨40, _⟩ => ⟨S8x4096x2048, .f32⟩
  | .hbm, ⟨41, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_call1_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S8x1x2048 : S_.BroadcastsInDim S8x1x2048 (![] : Fin 0 → Fin S8x1x2048.rank)
  bcast_S8x1x2048_S8x4096x2048_0_1_2 : S8x1x2048.BroadcastsInDim S8x4096x2048 (![0, 1, 2] : Fin 3 → Fin S8x4096x2048.rank)
  dot_S8x4096x2048_S8x2048x2048_S8x4096x2048_2_1_1_2_0_0_wf : DotDims.WF S8x4096x2048 S8x2048x2048 S8x4096x2048 [2] [1] [1] [2] [0] [0]

variable [Facts₀]

def dot_S8x4096x2048_S8x2048x2048_S8x4096x2048_2_1_1_2_0_0 : DotDims S8x4096x2048 S8x2048x2048 S8x4096x2048 where
  lhsContracting := [2]
  rhsContracting := [1]
  lhsNonContracting := [1]
  rhsNonContracting := [2]
  lhsBatch := [0]
  rhsBatch := [0]
  wf := dot_S8x4096x2048_S8x2048x2048_S8x4096x2048_2_1_1_2_0_0_wf

class Facts : Prop extends Facts₀ where

variable [Facts]
-- ==== Proof.BitsWeights.lean ====
/-
  The first pallas_call builds the sampled weights: over the grid (member, row tile, column tile) each point reads the
  1024×1024 tiles of μ, ρ and ε at its block and stores the tile of  μ + softplus(ρ)·ε  (rounded to bf16) at the same
  block of the result.  This module states what one point leaves in the result's staging buffer as a function of the
  three input tiles, proves the body's triple by symbolic execution, and packages the region's proof data and body
  obligation at an arbitrary valuation V of the buffers on entry.
-/
import proofs.«116653_j1632087572792_2_alg».proof.Proof.Gen.Kernel.Launch
import proofs.«116653_j1632087572792_2_alg».proof.Proof.Gen.Kernel.Skeleton
import proofs.«116653_j1632087572792_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's tile at grid point t, read off its array as the region finds it. -/
def wblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its tile at every point (here every input is fetched at every point). -/
theorem wbefore_0 {c : Dev nD} (dat : Dat τ (Elt F) Unit ℕ (UR sig nD τ) ℕ cfg0 c) (hA : dat.A 0 = V c (Pipeline.arrRef spec0 0))
    (hafter : ∀ t, dat.after 0 t = wblk V c 0 t) (t : Fin cfg0.N) (d) : dat.before 0 t d = wblk V c 0 t :=
  (dat.before_in_eq_fetched 0 rfl (fun _ => rfl) (fun _ _ _ => rfl) (fun t => by rw [hafter]; unfold Dat.blockOf wblk; rw [hA]; try rfl) t d).trans
    (by unfold Dat.fetched Dat.blockOf wblk; rw [hA]; try rfl)
theorem wbefore_1 {c : Dev nD} (dat : Dat τ (Elt F) Unit ℕ (UR sig nD τ) ℕ cfg0 c) (hA : dat.A 1 = V c (Pipeline.arrRef spec0 1))
    (hafter : ∀ t, dat.after 1 t = wblk V c 1 t) (t : Fin cfg0.N) (d) : dat.before 1 t d = wblk V c 1 t :=
  (dat.before_in_eq_fetched 1 rfl (fun _ => rfl) (fun _ _ _ => rfl) (fun t => by rw [hafter]; unfold Dat.blockOf wblk; rw [hA]; try rfl) t d).trans
    (by unfold Dat.fetched Dat.blockOf wblk; rw [hA]; try rfl)
theorem wbefore_2 {c : Dev nD} (dat : Dat τ (Elt F) Unit ℕ (UR sig nD τ) ℕ cfg0 c) (hA : dat.A 2 = V c (Pipeline.arrRef spec0 2))
    (hafter : ∀ t, dat.after 2 t = wblk V c 2 t) (t : Fin cfg0.N) (d) : dat.before 2 t d = wblk V c 2 t :=
  (dat.before_in_eq_fetched 2 rfl (fun _ => rfl) (fun _ _ _ => rfl) (fun t => by rw [hafter]; unfold Dat.blockOf wblk; rw [hA]; try rfl) t d).trans
    (by unfold Dat.fetched Dat.blockOf wblk; rw [hA]; try rfl)

/-- The whole 1×1024×1024 tile: the one rectangle the body loads and stores through. -/
abbrev rW : Rect S1x1024x1024 := Rect.unit (s := S1x1024x1024) ![0, 0, 0] S1x1024x1024.size inb_S1x1024x1024_S1x1024x1024_0_0_0

/-- What a point leaves in the result's staging buffer: the one store's value, μ + softplus(ρ)·ε of the three tiles
    (xμ, xρ, xε in the windows' order). -/
def wout (xμ xρ xε : Vec F S1x1024x1024 .f32) : Vec F S1x1024x1024 .bf16 :=
  View.canon [⟨rW, k0_pay1 (View.ld xρ rW) (View.ld xμ rW) (View.ld xε rW)⟩]

/-- The one store covers the buffer. -/
theorem wcover (p0 : Vec F S1x1024x1024 .bf16) (y : S1x1024x1024.Idx) :
    ∃ pc ∈ ([⟨rW, p0⟩] : List (View.Piece (Elt F) S1x1024x1024 .bf16)), y ∈ pc.1.set :=
  View.cover_of_tiled [⟨rW, p0⟩] S1x1024x1024.size (by rfl) y

set_option maxHeartbeats 1000000 in
/-- The body on whole staging memrefs: the inputs at given contents and the result's buffer at anything run to the
    inputs unchanged and the result's buffer at `wout` of the inputs. -/
theorem weights_triple (c : Dev nD) (E : Set ℕ) (i : grid0.Coords)
    (a0 : Memref sig .tc .vmem S1x1024x1024 .f32) (h0 : a0.IsWhole) (a1 : Memref sig .tc .vmem S1x1024x1024 .f32) (h1 : a1.IsWhole)
    (a2 : Memref sig .tc .vmem S1x1024x1024 .f32) (h2 : a2.IsWhole) (a3 : Memref sig .tc .vmem S1x1024x1024 .bf16) (h3 : a3.IsWhole)
    (x0 x1 x2 : Vec F S1x1024x1024 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (wout x0 x1 x2)) -∗ K ⟨⟩))
      ⊢ wp frame (wpE (defs₀ (F := F)) Variants.none c none) E (cc0__weight_kernel i a0 h0 a1 h1 a2 h2 a3 h3) K := by
  simp only [cc0__weight_kernel_eq_skeleton]; unfold cc0__weight_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (wcover _)

/-- The region's proof data on core c: the arrays as found; after the body each input's buffer at its tile and the
    result's at `wout` of the tiles; the invariant the untouched scoped rest and generator register; nothing owed. -/
def wdat (c : Dev nD) : Dat τ (Elt F) Unit ℕ (UR sig nD τ) ℕ cfg0 c where
  A w := V c (Pipeline.arrRef spec0 w)
  after w t := match w with
    | ⟨0, _⟩ => wblk V c 0 t
    | ⟨1, _⟩ => wblk V c 1 t
    | ⟨2, _⟩ => wblk V c 2 t
    | ⟨3, _⟩ => wout (wblk V c 0 t) (wblk V c 1 t) (wblk V c 2 t)
  Φ _ := Pipeline.ΦA spec0 c
  q _ := fullShare
  owed _ := 0

theorem wA_eq (c : Dev nD) (w : Fin cfg0.W) : (wdat V c).A w = V c (Pipeline.arrRef spec0 w) := by
  dsimp only [wdat]

theorem wafter_0 (c : Dev nD) (t : Fin cfg0.N) : (wdat V c).after 0 t = wblk V c 0 t := by dsimp only [wdat]
theorem wafter_1 (c : Dev nD) (t : Fin cfg0.N) : (wdat V c).after 1 t = wblk V c 1 t := by dsimp only [wdat]
theorem wafter_2 (c : Dev nD) (t : Fin cfg0.N) : (wdat V c).after 2 t = wblk V c 2 t := by dsimp only [wdat]
theorem wafter_3 (c : Dev nD) (t : Fin cfg0.N) :
    (wdat V c).after 3 t = wout (wblk V c 0 t) (wblk V c 1 t) (wblk V c 2 t) := by dsimp only [wdat]

theorem wfound_0 (c : Dev nD) (t : Fin cfg0.N) (d) : (wdat V c).before 0 t d = wblk V c 0 t :=
  wbefore_0 V (wdat V c) (wA_eq V c 0) (wafter_0 V c) t d
theorem wfound_1 (c : Dev nD) (t : Fin cfg0.N) (d) : (wdat V c).before 1 t d = wblk V c 1 t :=
  wbefore_1 V (wdat V c) (wA_eq V c 1) (wafter_1 V c) t d
theorem wfound_2 (c : Dev nD) (t : Fin cfg0.N) (d) : (wdat V c).before 2 t d = wblk V c 2 t :=
  wbefore_2 V (wdat V c) (wA_eq V c 2) (wafter_2 V c) t d

/-- What the body is called with at point t, the windows one by one, -/
def wPre (c : Dev nD) (t : Fin cfg0.N) : sProp 𝕄 :=
  iprop((wdat V c).Φ t.castSucc ∗ (wdat V c).owesAt () t.castSucc
    ∗ (∃ d, owns (c : Thread nD τ) (st0_0 t) fullShare ((wdat V c).before 0 t d))
    ∗ (∃ d, owns (c : Thread nD τ) (st0_1 t) fullShare ((wdat V c).before 1 t d))
    ∗ (∃ d, owns (c : Thread nD τ) (st0_2 t) fullShare ((wdat V c).before 2 t d))
    ∗ (∃ d, owns (c : Thread nD τ) (st0_3 t) fullShare ((wdat V c).before 3 t d)))

/-- and what it returns. -/
def wPost (c : Dev nD) (t : Fin cfg0.N) : sProp 𝕄 :=
  iprop((wdat V c).Φ t.succ ∗ (wdat V c).owesAt () t.succ
    ∗ owns (c : Thread nD τ) (st0_0 t) fullShare ((wdat V c).after 0 t)
    ∗ owns (c : Thread nD τ) (st0_1 t) fullShare ((wdat V c).after 1 t)
    ∗ owns (c : Thread nD τ) (st0_2 t) fullShare ((wdat V c).after 2 t)
    ∗ owns (c : Thread nD τ) (st0_3 t) fullShare ((wdat V c).after 3 t))

/-- The body at any point: the inputs' buffers hold their tiles, so the triple applies; the invariant and the core's
    dues pass through unread. -/
theorem weights_body (c : Dev nD) (t : Fin cfg0.N) :
    wPre V c t ⊢ wp frame (wpE (defs₀ (F := F)) Variants.none c none) Set.univ (bodyAt0 t) (fun _ => wPost V c t) := by
  unfold wPre wPost bodyAt0
  simp only [wfound_0, wfound_1, wfound_2]
  rw [show (wdat V c).Φ t.succ = (wdat V c).Φ t.castSucc from rfl,
    show (wdat V c).owesAt () t.succ = (wdat V c).owesAt () t.castSucc from rfl,
    wafter_0, wafter_1, wafter_2, wafter_3]
  iintro ⟨HΦ, Ho, ⟨%d0, H0⟩, ⟨%d1, H1⟩, ⟨%d2, H2⟩, ⟨%d3, H3⟩⟩
  iapply (weights_triple c Set.univ _ _ _ _ _ _ _ _ _ (wblk V c 0 t) (wblk V c 1 t) (wblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem weights_obligation (c : Dev nD) : BodyObligation (wdat (F := F) V c) (defs₀ (F := F)) Variants.none () Set.univ := fun t => by
  rw [bigSep_W0, bigSep_W0]
  exact weights_body V c t

end Cert.Kernel.Hand

end
-- ==== Proof.BitsProduct.lean ====
/-
  The second pallas_call multiplies: over the grid (member m, row tile b) each point reads the 256×2048 tile of x, the
  member's whole 2048×2048 weight matrix and — only at the member's first row tile (b = 0) — the member's three bias
  rows, from which it stores the bias row  bμ + softplus(bρ)·bε  into a scratch buffer that later row tiles of the same
  member read back.  Every point then stores  x_tile · W_m + bias row  (broadcast down the rows) into the result's tile.
  So the scratch carries a value between grid points: after point t it holds the bias row computed at the first point
  of t's member.  This module states that invariant, proves the body's triple in both control cases by symbolic
  execution, and packages the region's proof data and body obligation at an arbitrary valuation V on entry.
-/
import proofs.«116653_j1632087572792_2_alg».proof.Proof.Gen.Kernel.Launch
import proofs.«116653_j1632087572792_2_alg».proof.Proof.Gen.Kernel.Skeleton
import proofs.«116653_j1632087572792_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def pblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: the weight matrix and
    the bias rows are fetched only when the member changes, and between two such points their block index stands still. -/
theorem pbefore_0 {c : Dev nD} (dat : Dat τ (Elt F) Unit ℕ (UR sig nD τ) ℕ cfg1 c) (hA : dat.A 0 = V c (Pipeline.arrRef spec1 0))
    (hafter : ∀ t, dat.after 0 t = pblk V c 0 t) (t : Fin cfg1.N) (d) : dat.before 0 t d = pblk V c 0 t :=
  (dat.before_in_eq_fetched 0 rfl (fun _ => rfl) (fun _ _ _ => rfl) (fun t => by rw [hafter]; unfold Dat.blockOf pblk; rw [hA]; try rfl) t d).trans
    (by unfold Dat.fetched Dat.blockOf pblk; rw [hA]; try rfl)
theorem pbefore_1 {c : Dev nD} (dat : Dat τ (Elt F) Unit ℕ (UR sig nD τ) ℕ cfg1 c) (hA : dat.A 1 = V c (Pipeline.arrRef spec1 1))
    (hafter : ∀ t, dat.after 1 t = pblk V c 1 t) (t : Fin cfg1.N) (d) : dat.before 1 t d = pblk V c 1 t :=
  (dat.before_in_eq_fetched 1 rfl (fun _ => rfl) (fun _ _ _ => rfl) (fun t => by rw [hafter]; unfold Dat.blockOf pblk; rw [hA]; try rfl) t d).trans
    (by unfold Dat.fetched Dat.blockOf pblk; rw [hA]; try rfl)
theorem pbefore_2 {c : Dev nD} (dat : Dat τ (Elt F) Unit ℕ (UR sig nD τ) ℕ cfg1 c) (hA : dat.A 2 = V c (Pipeline.arrRef spec1 2))
    (hafter : ∀ t, dat.after 2 t = pblk V c 2 t) (t : Fin cfg1.N) (d) : dat.before 2 t d = pblk V c 2 t :=
  (dat.before_in_eq_fetched 2 rfl (fun _ => rfl) (fun _ _ _ => rfl) (fun t => by rw [hafter]; unfold Dat.blockOf pblk; rw [hA]; try rfl) t d).trans
    (by unfold Dat.fetched Dat.blockOf pblk; rw [hA]; try rfl)
theorem pbefore_3 {c : Dev nD} (dat : Dat τ (Elt F) Unit ℕ (UR sig nD τ) ℕ cfg1 c) (hA : dat.A 3 = V c (Pipeline.arrRef spec1 3))
    (hafter : ∀ t, dat.after 3 t = pblk V c 3 t) (t : Fin cfg1.N) (d) : dat.before 3 t d = pblk V c 3 t :=
  (dat.before_in_eq_fetched 3 rfl (fun _ => rfl) (fun _ _ _ => rfl) (fun t => by rw [hafter]; unfold Dat.blockOf pblk; rw [hA]; try rfl) t d).trans
    (by unfold Dat.fetched Dat.blockOf pblk; rw [hA]; try rfl)
theorem pbefore_4 {c : Dev nD} (dat : Dat τ (Elt F) Unit ℕ (UR sig nD τ) ℕ cfg1 c) (hA : dat.A 4 = V c (Pipeline.arrRef spec1 4))
    (hafter : ∀ t, dat.after 4 t = pblk V c 4 t) (t : Fin cfg1.N) (d) : dat.before 4 t d = pblk V c 4 t :=
  (dat.before_in_eq_fetched 4 rfl (fun _ => rfl) (fun _ _ _ => rfl) (fun t => by rw [hafter]; unfold Dat.blockOf pblk; rw [hA]; try rfl) t d).trans
    (by unfold Dat.fetched Dat.blockOf pblk; rw [hA]; try rfl)

/-! ## The control case: is this the member's first row tile? -/

/-- The body's one branch condition, from the grid coordinates: row-tile coordinate = 0. -/
abbrev firstTile (i : grid1.Coords) : Prop := (Scalar.cmpi .ne (Scalar.extui (Scalar.cmpi .eq (BitVec.ofNat 32 (i 1).val) 0#32)) 0#32) = 1#1
/-- Over the row-major grid of 8 × 16 points it holds at the points ≡ 0 (mod 16). -/
theorem firstTile_iff : ∀ t : Fin cfg1.N, firstTile (grid1.coords t) ↔ t.val % 16 = 0 :=
  (by decide +kernel : ∀ t : Fin grid1.N, firstTile (grid1.coords t) ↔ t.val % 16 = 0)

/-! ## The body's triple in each case -/

theorem zero3 : (![0, 0, 0] : Fin 3 → Nat) = fun _ => 0 := by funext a; fin_cases a <;> rfl
theorem zero2 : (![0, 0] : Fin 2 → Nat) = fun _ => 0 := by funext a; fin_cases a <;> rfl

/-- The scratch buffer, a whole scoped buffer of the kernel's own. -/
abbrev scM : Memref sig .tc .vmem S1x2048 .f32 := Memref.whole cc1_scratch0

theorem pcover_out (p0 : Vec F S1x256x2048 .f32) (y : S1x256x2048.Idx) :
    ∃ pc ∈ ([⟨Rect.unit (s := S1x256x2048) ![0, 0, 0] S1x256x2048.size inb_S1x256x2048_S1x256x2048_0_0_0, p0⟩] : List (View.Piece (Elt F) S1x256x2048 .f32)), y ∈ pc.1.set :=
  ⟨_, List.mem_singleton_self _, View.mem_set_unit_zero zero3 inb_S1x256x2048_S1x256x2048_0_0_0 y⟩
theorem pcover_scr (p0 : Vec F S1x2048 .f32) (y : S1x2048.Idx) :
    ∃ pc ∈ ([⟨Rect.unit (s := S1x2048) ![0, 0] S1x2048.size inb_S1x2048_S1x2048_0_0, p0⟩] : List (View.Piece (Elt F) S1x2048 .f32)), y ∈ pc.1.set :=
  ⟨_, List.mem_singleton_self _, View.mem_set_unit_zero zero2 inb_S1x2048_S1x2048_0_0 y⟩

set_option maxHeartbeats 1000000 in
/-- FIRST ROW TILE of a member: the scratch at anything runs to the scratch at the bias row of the three bias blocks,
    and the result's buffer to the product tile plus that row. -/
theorem product_first (c : Dev nD) (E : Set ℕ) (i : grid1.Coords) (hc : firstTile i)
    (a2 : Memref sig .tc .vmem S1x256x2048 .f32) (h2 : a2.IsWhole) (a3 : Memref sig .tc .vmem S1x2048x2048 .bf16) (h3 : a3.IsWhole)
    (a4 : Memref sig .tc .vmem S1x1x2048 .f32) (h4 : a4.IsWhole) (a5 : Memref sig .tc .vmem S1x1x2048 .f32) (h5 : a5.IsWhole)
    (a6 : Memref sig .tc .vmem S1x1x2048 .f32) (h6 : a6.IsWhole) (a7 : Memref sig .tc .vmem S1x256x2048 .f32) (h7 : a7.IsWhole)
    (a8 : Memref sig .tc .vmem S1x2048 .f32) (h8 : a8.IsWhole)
    (x : Vec F S1x256x2048 .f32) (w : Vec F S1x2048x2048 .bf16) (bμ bρ bε : Vec F S1x1x2048 .f32) (K : PUnit → sProp 𝕄) :
    iprop(owns (c : Thread nD τ) a2 fullShare x ∗ owns (c : Thread nD τ) a3 fullShare w ∗ owns (c : Thread nD τ) a4 fullShare bμ
        ∗ owns (c : Thread nD τ) a5 fullShare bρ ∗ owns (c : Thread nD τ) a6 fullShare bε
        ∗ (∃ d, owns (c : Thread nD τ) a7 fullShare d) ∗ (∃ d, owns (c : Thread nD τ) a8 fullShare d)
        ∗ (iprop(owns (c : Thread nD τ) a2 fullShare x ∗ owns (c : Thread nD τ) a3 fullShare w ∗ owns (c : Thread nD τ) a4 fullShare bμ
            ∗ owns (c : Thread nD τ) a5 fullShare bρ ∗ owns (c : Thread nD τ) a6 fullShare bε
            ∗ owns (c : Thread nD τ) a7 fullShare (k1_pay2 x w (k1_pay1 bρ bμ bε))
            ∗ owns (c : Thread nD τ) a8 fullShare (k1_pay1 bρ bμ bε)) -∗ K ⟨⟩))
      ⊢ wp frame (wpE (defs₀ (F := F)) Variants.none c none) E (cc1__matmul_kernel i a2 h2 a3 h3 a4 h4 a5 h5 a6 h6 a7 h7 a8 h8) K := by
  simp only [cc1__matmul_kernel_eq_skeleton]; unfold cc1__matmul_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf2; subst hf3; subst hf4; subst hf5; subst hf6
  sl_exec (disch := exact hc)
  sl_step
  sl_unfold_run_names
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (pcover_out _), View.canon_unit_zero zero3, View.readCov_unit_zero _ zero2]
    simp only [View.readAt_eq_ld, View.ld_unit_zero (S := S1x256x2048) zero3, View.ld_unit_zero (S := S1x2048x2048) zero3,
      View.ld_unit_zero (S := S1x1x2048) zero3]
  · iexists _; isplitr
    swap; · iexact H8
    ipureintro
    rw [View.read_writes_eq_canon _ _ _ (pcover_scr _), View.canon_unit_zero zero2]
    simp only [View.readAt_eq_ld, View.ld_unit_zero (S := S1x1x2048) zero3]

set_option maxHeartbeats 1000000 in
/-- A LATER ROW TILE of a member: the scratch at contents s is read and left; the result's buffer ends at the
    product tile plus s. The bias blocks are not touched. -/
theorem product_later (c : Dev nD) (E : Set ℕ) (i : grid1.Coords) (hc : ¬firstTile i)
    (a2 : Memref sig .tc .vmem S1x256x2048 .f32) (h2 : a2.IsWhole) (a3 : Memref sig .tc .vmem S1x2048x2048 .bf16) (h3 : a3.IsWhole)
    (a4 : Memref sig .tc .vmem S1x1x2048 .f32) (h4 : a4.IsWhole) (a5 : Memref sig .tc .vmem S1x1x2048 .f32) (h5 : a5.IsWhole)
    (a6 : Memref sig .tc .vmem S1x1x2048 .f32) (h6 : a6.IsWhole) (a7 : Memref sig .tc .vmem S1x256x2048 .f32) (h7 : a7.IsWhole)
    (a8 : Memref sig .tc .vmem S1x2048 .f32) (h8 : a8.IsWhole)
    (x : Vec F S1x256x2048 .f32) (w : Vec F S1x2048x2048 .bf16) (s : Vec F S1x2048 .f32) (K : PUnit → sProp 𝕄) :
    iprop(owns (c : Thread nD τ) a2 fullShare x ∗ owns (c : Thread nD τ) a3 fullShare w
        ∗ (∃ d, owns (c : Thread nD τ) a7 fullShare d) ∗ owns (c : Thread nD τ) a8 fullShare s
        ∗ (iprop(owns (c : Thread nD τ) a2 fullShare x ∗ owns (c : Thread nD τ) a3 fullShare w
            ∗ owns (c : Thread nD τ) a7 fullShare (k1_pay2 x w s)
            ∗ owns (c : Thread nD τ) a8 fullShare s) -∗ K ⟨⟩))
      ⊢ wp frame (wpE (defs₀ (F := F)) Variants.none c none) E (cc1__matmul_kernel i a2 h2 a3 h3 a4 h4 a5 h5 a6 h6 a7 h7 a8 h8) K := by
  simp only [cc1__matmul_kernel_eq_skeleton]; unfold cc1__matmul_kernel_skel
  unfold owns
  iintro ⟨⟨%f2, %hf2, H2⟩, ⟨%f3, %hf3, H3⟩, ⟨%d7, %f7, -, H7⟩, ⟨%f8, %hf8, H8⟩, Hk⟩
  subst hf2; subst hf3; subst hf8
  sl_exec (disch := exact hc)
  sl_step
  iapply Hk
  isplitl [H2]
  · iexists f2; isplitr; · ipureintro; rfl
    iexact H2
  isplitl [H3]
  · iexists f3; isplitr; · ipureintro; rfl
    iexact H3
  isplitl [H7]
  · iexists _; isplitr
    swap; · iexact H7
    ipureintro
    rw [View.read_writes_eq_canon _ _ _ (pcover_out _), View.canon_unit_zero zero3]
    simp only [View.readAt_eq_ld, View.ld_unit_zero (S := S1x256x2048) zero3, View.ld_unit_zero (S := S1x2048x2048) zero3,
      View.ld_unit_zero (S := S1x2048) zero2]
  · iexists f8; isplitr; · ipureintro; rfl
    iexact H8

/-! ## What the scratch holds point by point, and the region's invariant -/

theorem N1_eq : cfg1.N = 128 := N_1

/-- The first point of the member that point t belongs to (the grid is row-major, 16 row tiles per member). -/
def lead (t : Fin cfg1.N) : Fin cfg1.N := ⟨t.val / 16 * 16, by have := t.isLt; have hN : cfg1.N = 128 := N_1; omega⟩

/-- The scratch after point t: the bias row of the member's three bias blocks, as stored at the member's first point. -/
def scrAt (c : Dev nD) (t : Fin cfg1.N) : Vec F S1x2048 .f32 :=
  k1_pay1 (pblk V c 3 (lead t)) (pblk V c 2 (lead t)) (pblk V c 4 (lead t))

/-- A scoped buffer whole at some contents. -/
abbrev anyAt (c : Dev nD) (b : Ref sig .tc) : sProp 𝕄 :=
  iprop(∃ f : Buf (Elt F) ((c : Thread nD τ).loc b), ((c : Thread nD τ).loc b) ↦{fullShare} f)

/-- What the body never touches: the first region's staging buffers at anything and the generator register. -/
def idleRest (c : Dev nD) : sProp 𝕄 :=
  iprop((anyAt (F := F) c cc0_stg0_0 ∗ anyAt (F := F) c cc0_stg0_1 ∗ anyAt (F := F) c cc0_stg1_0 ∗ anyAt (F := F) c cc0_stg1_1
    ∗ anyAt (F := F) c cc0_stg2_0 ∗ anyAt (F := F) c cc0_stg2_1 ∗ anyAt (F := F) c cc0_stg3_0 ∗ anyAt (F := F) c cc0_stg3_1)
    ∗ ∃ r, prngReg c r)

/-- The scratch owned at some contents is its buffer whole at some contents. -/
theorem scr_any (c : Dev nD) :
    (iprop(∃ d, owns (c : Thread nD τ) scM fullShare d) : sProp 𝕄) = anyAt (F := F) c cc1_scratch0 := by
  simp only [scM, owns_whole]; rfl

/-- The class's invariant (every scoped non-staging buffer at anything, the register at some state) is the scratch at
    anything beside the idle rest, -/
theorem phiA_open (c : Dev nD) :
    (Pipeline.ΦA spec1 c : sProp 𝕄) ⊢ iprop((∃ d, owns (c : Thread nD τ) scM fullShare d) ∗ idleRest (F := F) c) := by
  rw [scr_any]; unfold Pipeline.ΦA idleRest; rw [scopedRest1_eq]
  iintro ⟨⟨A0, A1, A2, A3, A4, A5, A6, A7, HS⟩, Hg⟩
  isplitl [HS]
  · iexact HS
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  iexact Hg

/-- and back. -/
theorem phiA_close (c : Dev nD) :
    iprop((∃ d, owns (c : Thread nD τ) scM fullShare d) ∗ idleRest (F := F) c) ⊢ (Pipeline.ΦA spec1 c : sProp 𝕄) := by
  rw [scr_any]; unfold Pipeline.ΦA idleRest; rw [scopedRest1_eq]
  iintro ⟨HS, ⟨A0, A1, A2, A3, A4, A5, A6, A7⟩, Hg⟩
  isplitl [A0 A1 A2 A3 A4 A5 A6 A7 HS]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexact HS
  iexact Hg

/-- The region invariant before position n: before the first point the class's; afterwards the scratch at what the
    point before left in it, beside the idle rest. -/
def PhiS (c : Dev nD) : (n : ℕ) → n ≤ cfg1.N → sProp 𝕄
  | 0, _ => Pipeline.ΦA spec1 c
  | n + 1, hn => iprop(owns (c : Thread nD τ) scM fullShare (scrAt V c ⟨n, hn⟩) ∗ idleRest (F := F) c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM fullShare (scrAt V c ⟨n, hn⟩) ∗ idleRest (F := F) c) := rfl

theorem PhiS_pos (c : Dev nD) (n : ℕ) (h : n ≤ cfg1.N) (hz : n ≠ 0) :
    PhiS V c n h = iprop(owns (c : Thread nD τ) scM fullShare (scrAt V c ⟨n - 1, by omega⟩) ∗ idleRest (F := F) c) := by
  cases n with
  | zero => exact absurd rfl hz
  | succ n => rfl

/-- At any position the invariant gives the scratch at SOME contents beside the idle rest. -/
theorem PhiS_any (c : Dev nD) (n : ℕ) (h : n ≤ cfg1.N) :
    PhiS V c n h ⊢ iprop((∃ d, owns (c : Thread nD τ) scM fullShare d) ∗ idleRest (F := F) c) := by
  by_cases hz : n = 0
  · rw [PhiS_zero V c n h hz]; exact phiA_open c
  · rw [PhiS_pos V c n h hz]
    iintro ⟨HS, Hr⟩
    isplitl [HS]; · iexists _; iexact HS
    iexact Hr

/-! ## The region's proof data -/

/-- On core c: the arrays as found; after the body each input's buffer at its block and the result's at the product
    tile plus the member's bias row; the invariant `PhiS`; nothing owed; full shares. -/
def pdat (c : Dev nD) : Dat τ (Elt F) Unit ℕ (UR sig nD τ) ℕ cfg1 c where
  A w := V c (Pipeline.arrRef spec1 w)
  after w t := match w with
    | ⟨0, _⟩ => pblk V c 0 t
    | ⟨1, _⟩ => pblk V c 1 t
    | ⟨2, _⟩ => pblk V c 2 t
    | ⟨3, _⟩ => pblk V c 3 t
    | ⟨4, _⟩ => pblk V c 4 t
    | ⟨5, _⟩ => k1_pay2 (pblk V c 0 t) (pblk V c 1 t) (scrAt V c t)
  Φ t := PhiS V c t.val (Nat.le_of_lt_succ t.isLt)
  q _ := fullShare
  owed _ := 0

theorem pA_eq (c : Dev nD) (w : Fin cfg1.W) : (pdat V c).A w = V c (Pipeline.arrRef spec1 w) := by
  dsimp only [pdat]

theorem PhiS_castSucc (c : Dev nD) (t : Fin cfg1.N) :
    (pdat V c).Φ t.castSucc = PhiS V c t.val (Nat.le_of_lt t.isLt) := by
  dsimp only [pdat]; simp only [Fin.coe_castSucc]

theorem pafter_0 (c : Dev nD) (t : Fin cfg1.N) : (pdat V c).after 0 t = pblk V c 0 t := by dsimp only [pdat]
theorem pafter_1 (c : Dev nD) (t : Fin cfg1.N) : (pdat V c).after 1 t = pblk V c 1 t := by dsimp only [pdat]
theorem pafter_2 (c : Dev nD) (t : Fin cfg1.N) : (pdat V c).after 2 t = pblk V c 2 t := by dsimp only [pdat]
theorem pafter_3 (c : Dev nD) (t : Fin cfg1.N) : (pdat V c).after 3 t = pblk V c 3 t := by dsimp only [pdat]
theorem pafter_4 (c : Dev nD) (t : Fin cfg1.N) : (pdat V c).after 4 t = pblk V c 4 t := by dsimp only [pdat]
theorem pafter_5 (c : Dev nD) (t : Fin cfg1.N) :
    (pdat V c).after 5 t = k1_pay2 (pblk V c 0 t) (pblk V c 1 t) (scrAt V c t) := by dsimp only [pdat]

theorem pfound_0 (c : Dev nD) (t : Fin cfg1.N) (d) : (pdat V c).before 0 t d = pblk V c 0 t :=
  pbefore_0 V (pdat V c) (pA_eq V c 0) (pafter_0 V c) t d
theorem pfound_1 (c : Dev nD) (t : Fin cfg1.N) (d) : (pdat V c).before 1 t d = pblk V c 1 t :=
  pbefore_1 V (pdat V c) (pA_eq V c 1) (pafter_1 V c) t d
theorem pfound_2 (c : Dev nD) (t : Fin cfg1.N) (d) : (pdat V c).before 2 t d = pblk V c 2 t :=
  pbefore_2 V (pdat V c) (pA_eq V c 2) (pafter_2 V c) t d
theorem pfound_3 (c : Dev nD) (t : Fin cfg1.N) (d) : (pdat V c).before 3 t d = pblk V c 3 t :=
  pbefore_3 V (pdat V c) (pA_eq V c 3) (pafter_3 V c) t d
theorem pfound_4 (c : Dev nD) (t : Fin cfg1.N) (d) : (pdat V c).before 4 t d = pblk V c 4 t :=
  pbefore_4 V (pdat V c) (pA_eq V c 4) (pafter_4 V c) t d

/-! ## The body obligation -/

/-- What the body is called with at point t, the windows one by one, -/
def pPre (c : Dev nD) (t : Fin cfg1.N) : sProp 𝕄 :=
  iprop((pdat V c).Φ t.castSucc ∗ (pdat V c).owesAt () t.castSucc
    ∗ (∃ d, owns (c : Thread nD τ) (st1_0 t) fullShare ((pdat V c).before 0 t d))
    ∗ (∃ d, owns (c : Thread nD τ) (st1_1 t) fullShare ((pdat V c).before 1 t d))
    ∗ (∃ d, owns (c : Thread nD τ) (st1_2 t) fullShare ((pdat V c).before 2 t d))
    ∗ (∃ d, owns (c : Thread nD τ) (st1_3 t) fullShare ((pdat V c).before 3 t d))
    ∗ (∃ d, owns (c : Thread nD τ) (st1_4 t) fullShare ((pdat V c).before 4 t d))
    ∗ (∃ d, owns (c : Thread nD τ) (st1_5 t) fullShare ((pdat V c).before 5 t d)))

/-- and what it returns. -/
def pPost (c : Dev nD) (t : Fin cfg1.N) : sProp 𝕄 :=
  iprop((pdat V c).Φ t.succ ∗ (pdat V c).owesAt () t.succ
    ∗ owns (c : Thread nD τ) (st1_0 t) fullShare ((pdat V c).after 0 t)
    ∗ owns (c : Thread nD τ) (st1_1 t) fullShare ((pdat V c).after 1 t)
    ∗ owns (c : Thread nD τ) (st1_2 t) fullShare ((pdat V c).after 2 t)
    ∗ owns (c : Thread nD τ) (st1_3 t) fullShare ((pdat V c).after 3 t)
    ∗ owns (c : Thread nD τ) (st1_4 t) fullShare ((pdat V c).after 4 t)
    ∗ owns (c : Thread nD τ) (st1_5 t) fullShare ((pdat V c).after 5 t))

set_option maxHeartbeats 2000000 in
/-- The body at any point. At a member's first row tile the invariant hands over the scratch at some contents and takes
    it back at the member's bias row; at a later row tile it hands it over at that row (the point before belongs to the
    same member) and takes it back unchanged. -/
theorem product_body (c : Dev nD) (t : Fin cfg1.N) :
    pPre V c t ⊢ wp frame (wpE (defs₀ (F := F)) Variants.none c none) Set.univ (bodyAt1 t) (fun _ => pPost V c t) := by
  unfold pPre pPost bodyAt1
  simp only [pfound_0, pfound_1, pfound_2, pfound_3, pfound_4]
  rw [show (pdat V c).owesAt () t.succ = (pdat V c).owesAt () t.castSucc from rfl]
  rw [show (pdat V c).Φ t.succ = PhiS V c (t.val + 1) t.isLt from rfl, PhiS_succ]
  rw [pafter_0, pafter_1, pafter_2, pafter_3, pafter_4, pafter_5, PhiS_castSucc V c t]
  have hN : t.val < 128 := lt_of_lt_of_eq t.isLt N1_eq
  by_cases h0 : t.val % 16 = 0
  · have hl : lead t = t := Fin.ext (by show t.val / 16 * 16 = t.val; omega)
    rw [show scrAt V c ⟨t.val, t.isLt⟩ = k1_pay1 (pblk V c 3 t) (pblk V c 2 t) (pblk V c 4 t) from by
      show scrAt V c t = _; unfold scrAt; rw [hl]]
    have hany := PhiS_any V c t.val (Nat.le_of_lt t.isLt)
    iintro ⟨Hphi, Ho, ⟨%d0, H0⟩, ⟨%d1, H1⟩, ⟨%d2, H2⟩, ⟨%d3, H3⟩, ⟨%d4, H4⟩, ⟨%d5, H5⟩⟩
    ihave Hany := hany $$ Hphi
    icases Hany with ⟨HS, Hr⟩
    iapply (product_first c Set.univ (grid1.coords t) ((firstTile_iff t).mpr h0) _ _ _ _ _ _ _ _ _ _ _ _ _ _
      (pblk V c 0 t) (pblk V c 1 t) (pblk V c 2 t) (pblk V c 3 t) (pblk V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := fun e => h0 (by rw [e])
    have hprev : scrAt V c ⟨t.val - 1, by omega⟩ = scrAt V c t := by
      unfold scrAt
      rw [show lead ⟨t.val - 1, by omega⟩ = lead t from Fin.ext (by show (t.val - 1) / 16 * 16 = t.val / 16 * 16; omega)]
    rw [PhiS_pos V c _ _ hz, hprev, show scrAt V c ⟨t.val, t.isLt⟩ = scrAt V c t from rfl]
    iintro ⟨⟨HS, Hr⟩, Ho, ⟨%d0, H0⟩, ⟨%d1, H1⟩, ⟨%d2, H2⟩, ⟨%d3, H3⟩, ⟨%d4, H4⟩, ⟨%d5, H5⟩⟩
    iapply (product_later c Set.univ (grid1.coords t) (fun h => h0 ((firstTile_iff t).mp h)) _ _ _ _ _ _ _ _ _ _ _ _ _ _
      (pblk V c 0 t) (pblk V c 1 t) (scrAt V c t) _)
    isplitl [H0]; · iexact H0
    isplitl [H1]; · iexact H1
    isplitl [H5]; · iexists _; iexact H5
    isplitl [HS]; · iexact HS
    iintro ⟨H0, H1, H5, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem product_obligation (c : Dev nD) : BodyObligation (pdat (F := F) V c) (defs₀ (F := F)) Variants.none () Set.univ := fun t => by
  rw [bigSep_W1, bigSep_W1]
  exact product_body V c t

/-- What the launch hands the region is the invariant before the first point, -/
theorem product_in (c : Dev nD) : (Pipeline.ΦA spec1 c : sProp 𝕄) ⊢ (pdat V c).Φ 0 := by
  rw [show (pdat V c).Φ 0 = PhiS V c 0 (Nat.zero_le _) from rfl, PhiS_zero V c 0 _ rfl]
  try exact Idealize.SL.BI.Entails.refl _

/-- and after the last point the invariant gives it back, the scratch's contents forgotten. -/
theorem product_out (c : Dev nD) : (pdat V c).Φ (Fin.last cfg1.N) ⊢ (Pipeline.ΦA spec1 c : sProp 𝕄) := by
  rw [show (pdat V c).Φ (Fin.last cfg1.N) = PhiS V c (Fin.last cfg1.N).val (Nat.le_of_lt_succ (Fin.last cfg1.N).isLt) from rfl]
  exact (PhiS_any V c _ _).trans (phiA_close c)

end Cert.Kernel.Hand

end
-- ==== Proof.BitsRun.lean ====
/-
  The run of @main: the two pallas_calls one after the other, each as a region of the pipeline library's segment list.
  The buffers' contents at the three boundaries are a fold from the launch memory: a region leaves each of its arrays
  at what its write-backs make of it and every other buffer as it found it.  The theorem `run_all` says every weakly fair
  execution terminates and every unscoped buffer ends at the last boundary's contents; from it the frame (each argument
  array is never written: it is an input window of a region, or no window at all) and the result array as the second
  region's write-backs folded.
-/
import proofs.«116653_j1632087572792_2_alg».proof.Proof.BitsWeights
import proofs.«116653_j1632087572792_2_alg».proof.Proof.BitsProduct

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- Core c's buffers at launch (the first region's entry). -/
abbrev W0 : Dev nD → Valuation τ sig (Elt F) := fun c b => (s₀ m ρ).mem ((c : Dev nD), b)
abbrev V1 : (c : Dev nD) → (b : Ref sig .tc) → Buf (Elt F) ((c : Thread nD τ).loc b) := fun c b => W0 m ρ c b
/-- After the first region: its arrays at what the pipeline leaves, every other buffer as entered. -/
def W2 (c : Dev nD) : Valuation τ sig (Elt F) :=
  Pipeline.withArrays spec0 c (W0 m ρ c) fun w => (wdat (V1 m ρ) c).arrAt w cfg0.N
theorem W2_arr (c : Dev nD) (w : Fin cfg0.W) :
    W2 m ρ c (Proc.devRef .tc (Pipeline.arrRef spec0 w)) = (wdat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (wdat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second region (the end). -/
def W4 (c : Dev nD) : Valuation τ sig (Elt F) :=
  Pipeline.withArrays spec1 c (W2 m ρ c) fun w => (pdat (V2 m ρ) c).arrAt w cfg1.N
theorem W4_arr (c : Dev nD) (w : Fin cfg1.W) :
    W4 m ρ c (Proc.devRef .tc (Pipeline.arrRef spec1 w)) = (pdat (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (pdat (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-! ### Each argument ends as launched -/

/-- An input array of the first region that the second does not stage. -/
theorem W4_in0 (c : Dev nD) (w : Fin cfg0.W) (hw : (cfg0.win w).isOut = false)
    (hne : ∀ w', Pipeline.arrRef spec1 w' ≠ Pipeline.arrRef spec0 w) :
    W4 m ρ c (Proc.devRef .tc (Pipeline.arrRef spec0 w)) = m ((c : Thread nD τ).loc (Pipeline.arrRef spec0 w)) :=
  calc W4 m ρ c (Proc.devRef .tc (Pipeline.arrRef spec0 w))
    _ = W2 m ρ c (Proc.devRef .tc (Pipeline.arrRef spec0 w)) := W4_of_ne m ρ c _ hne
    _ = V1 m ρ c (Pipeline.arrRef spec0 w) := (W2_arr m ρ c w).trans (((wdat (V1 m ρ) c).arrAt_in w hw _).trans (wA_eq (V1 m ρ) c w))
    _ = m ((c : Thread nD τ).loc (Pipeline.arrRef spec0 w)) := rfl

/-- An input array of the second region that the first does not stage. -/
theorem W4_in1 (c : Dev nD) (w : Fin cfg1.W) (hw : (cfg1.win w).isOut = false)
    (hne : ∀ w', Pipeline.arrRef spec0 w' ≠ Pipeline.arrRef spec1 w) :
    W4 m ρ c (Proc.devRef .tc (Pipeline.arrRef spec1 w)) = m ((c : Thread nD τ).loc (Pipeline.arrRef spec1 w)) :=
  calc W4 m ρ c (Proc.devRef .tc (Pipeline.arrRef spec1 w))
    _ = V2 m ρ c (Pipeline.arrRef spec1 w) := (W4_arr m ρ c w).trans (((pdat (V2 m ρ) c).arrAt_in w hw _).trans (pA_eq (V2 m ρ) c w))
    _ = W0 m ρ c (Proc.devRef .tc (Pipeline.arrRef spec1 w)) := W2_of_ne m ρ c _ hne
    _ = m ((c : Thread nD τ).loc (Pipeline.arrRef spec1 w)) := rfl

theorem W4_main_arg0 (c : Dev nD) : W4 m ρ c (Proc.devRef .tc main_arg0) = m ((c : Thread nD τ).loc main_arg0) :=
  W4_in1 m ρ c 0 rfl (by decide)
theorem W4_main_arg1 (c : Dev nD) : W4 m ρ c (Proc.devRef .tc main_arg1) = m ((c : Thread nD τ).loc main_arg1) :=
  W4_in0 m ρ c 0 rfl (by decide)
theorem W4_main_arg2 (c : Dev nD) : W4 m ρ c (Proc.devRef .tc main_arg2) = m ((c : Thread nD τ).loc main_arg2) :=
  W4_in0 m ρ c 1 rfl (by decide)
theorem W4_main_arg3 (c : Dev nD) : W4 m ρ c (Proc.devRef .tc main_arg3) = m ((c : Thread nD τ).loc main_arg3) :=
  W4_in1 m ρ c 2 rfl (by decide)
theorem W4_main_arg4 (c : Dev nD) : W4 m ρ c (Proc.devRef .tc main_arg4) = m ((c : Thread nD τ).loc main_arg4) :=
  W4_in1 m ρ c 3 rfl (by decide)
theorem W4_main_arg5 (c : Dev nD) : W4 m ρ c (Proc.devRef .tc main_arg5) = m ((c : Thread nD τ).loc main_arg5) :=
  W4_in0 m ρ c 2 rfl (by decide)
theorem W4_main_arg6 (c : Dev nD) : W4 m ρ c (Proc.devRef .tc main_arg6) = m ((c : Thread nD τ).loc main_arg6) :=
  W4_in1 m ρ c 4 rfl (by decide)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => wdat (V1 m ρ) c
  | ⟨1, _⟩ => fun c => pdat (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region: entered from every unscoped buffer at the launch contents, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (weights_obligation (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from `W2`, left at `W4`. Its invariant takes the class's at the first point and gives
    it back after the last (the carried scratch's contents forgotten). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (product_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.Entails.trans (Q := (Pipeline.ΦA spec1 c : sProp 𝕄)) ?_ (product_in (V2 m ρ) c)
    unfold Pipeline.ΦA
    show (_ : sProp 𝕄) ⊢ (_ : sProp 𝕄)
    iintro ⟨Hp, -, Hr⟩
    isplitl [Hr]; · iexact Hr
    iexact Hp
  hout c := by
    rw [Pipeline.ownSems0_none]
    refine Idealize.SL.BI.Entails.trans (Q := (Pipeline.ΦA spec1 c : sProp 𝕄)) (product_out (V2 m ρ) c) ?_
    unfold Pipeline.ΦA
    show (_ : sProp 𝕄) ⊢ (_ : sProp 𝕄)
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.Kernel.Hand

end
-- ==== Proof.IdealWeights.lean ====
/-
  The first pallas_call builds the sampled weights: over the grid (member, row tile, column tile) each point reads the
  1024×1024 tiles of μ, ρ and ε at its block and stores the tile of  μ + softplus(ρ)·ε  (rounded to bf16) at the same
  block of the result.  This module states what one point leaves in the result's staging buffer as a function of the
  three input tiles, proves the body's triple by symbolic execution, and packages the region's proof data and body
  obligation at an arbitrary valuation V of the buffers on entry.
-/
import proofs.«116653_j1632087572792_2_alg».proof.Proof.Gen.KernelIdeal.Launch
import proofs.«116653_j1632087572792_2_alg».proof.Proof.Gen.KernelIdeal.Skeleton
import proofs.«116653_j1632087572792_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's tile at grid point t, read off its array as the region finds it. -/
def wblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its tile at every point (here every input is fetched at every point). -/
theorem wbefore_0 {c : Dev nD} (dat : Dat τ (Elt F) Unit ℕ (UR sig nD τ) ℕ cfg0 c) (hA : dat.A 0 = V c (Pipeline.arrRef spec0 0))
    (hafter : ∀ t, dat.after 0 t = wblk V c 0 t) (t : Fin cfg0.N) (d) : dat.before 0 t d = wblk V c 0 t :=
  (dat.before_in_eq_fetched 0 rfl (fun _ => rfl) (fun _ _ _ => rfl) (fun t => by rw [hafter]; unfold Dat.blockOf wblk; rw [hA]; try rfl) t d).trans
    (by unfold Dat.fetched Dat.blockOf wblk; rw [hA]; try rfl)
theorem wbefore_1 {c : Dev nD} (dat : Dat τ (Elt F) Unit ℕ (UR sig nD τ) ℕ cfg0 c) (hA : dat.A 1 = V c (Pipeline.arrRef spec0 1))
    (hafter : ∀ t, dat.after 1 t = wblk V c 1 t) (t : Fin cfg0.N) (d) : dat.before 1 t d = wblk V c 1 t :=
  (dat.before_in_eq_fetched 1 rfl (fun _ => rfl) (fun _ _ _ => rfl) (fun t => by rw [hafter]; unfold Dat.blockOf wblk; rw [hA]; try rfl) t d).trans
    (by unfold Dat.fetched Dat.blockOf wblk; rw [hA]; try rfl)
theorem wbefore_2 {c : Dev nD} (dat : Dat τ (Elt F) Unit ℕ (UR sig nD τ) ℕ cfg0 c) (hA : dat.A 2 = V c (Pipeline.arrRef spec0 2))
    (hafter : ∀ t, dat.after 2 t = wblk V c 2 t) (t : Fin cfg0.N) (d) : dat.before 2 t d = wblk V c 2 t :=
  (dat.before_in_eq_fetched 2 rfl (fun _ => rfl) (fun _ _ _ => rfl) (fun t => by rw [hafter]; unfold Dat.blockOf wblk; rw [hA]; try rfl) t d).trans
    (by unfold Dat.fetched Dat.blockOf wblk; rw [hA]; try rfl)

/-- The whole 1×1024×1024 tile: the one rectangle the body loads and stores through. -/
abbrev rW : Rect S1x1024x1024 := Rect.unit (s := S1x1024x1024) ![0, 0, 0] S1x1024x1024.size inb_S1x1024x1024_S1x1024x1024_0_0_0

/-- What a point leaves in the result's staging buffer: the one store's value, μ + softplus(ρ)·ε of the three tiles
    (xμ, xρ, xε in the windows' order). -/
def wout (xμ xρ xε : Vec F S1x1024x1024 .f32) : Vec F S1x1024x1024 .bf16 :=
  View.canon [⟨rW, k0_pay1 (View.ld xρ rW) (View.ld xμ rW) (View.ld xε rW)⟩]

/-- The one store covers the buffer. -/
theorem wcover (p0 : Vec F S1x1024x1024 .bf16) (y : S1x1024x1024.Idx) :
    ∃ pc ∈ ([⟨rW, p0⟩] : List (View.Piece (Elt F) S1x1024x1024 .bf16)), y ∈ pc.1.set :=
  View.cover_of_tiled [⟨rW, p0⟩] S1x1024x1024.size (by rfl) y

set_option maxHeartbeats 1000000 in
/-- The body on whole staging memrefs: the inputs at given contents and the result's buffer at anything run to the
    inputs unchanged and the result's buffer at `wout` of the inputs. -/
theorem weights_triple (c : Dev nD) (E : Set ℕ) (i : grid0.Coords)
    (a0 : Memref sig .tc .vmem S1x1024x1024 .f32) (h0 : a0.IsWhole) (a1 : Memref sig .tc .vmem S1x1024x1024 .f32) (h1 : a1.IsWhole)
    (a2 : Memref sig .tc .vmem S1x1024x1024 .f32) (h2 : a2.IsWhole) (a3 : Memref sig .tc .vmem S1x1024x1024 .bf16) (h3 : a3.IsWhole)
    (x0 x1 x2 : Vec F S1x1024x1024 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (wout x0 x1 x2)) -∗ K ⟨⟩))
      ⊢ wp frame (wpE (defs₀ (F := F)) Variants.none c none) E (cc0__weight_kernel i a0 h0 a1 h1 a2 h2 a3 h3) K := by
  simp only [cc0__weight_kernel_eq_skeleton]; unfold cc0__weight_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (wcover _)

/-- The region's proof data on core c: the arrays as found; after the body each input's buffer at its tile and the
    result's at `wout` of the tiles; the invariant the untouched scoped rest and generator register; nothing owed. -/
def wdat (c : Dev nD) : Dat τ (Elt F) Unit ℕ (UR sig nD τ) ℕ cfg0 c where
  A w := V c (Pipeline.arrRef spec0 w)
  after w t := match w with
    | ⟨0, _⟩ => wblk V c 0 t
    | ⟨1, _⟩ => wblk V c 1 t
    | ⟨2, _⟩ => wblk V c 2 t
    | ⟨3, _⟩ => wout (wblk V c 0 t) (wblk V c 1 t) (wblk V c 2 t)
  Φ _ := Pipeline.ΦA spec0 c
  q _ := fullShare
  owed _ := 0

theorem wA_eq (c : Dev nD) (w : Fin cfg0.W) : (wdat V c).A w = V c (Pipeline.arrRef spec0 w) := by
  dsimp only [wdat]

theorem wafter_0 (c : Dev nD) (t : Fin cfg0.N) : (wdat V c).after 0 t = wblk V c 0 t := by dsimp only [wdat]
theorem wafter_1 (c : Dev nD) (t : Fin cfg0.N) : (wdat V c).after 1 t = wblk V c 1 t := by dsimp only [wdat]
theorem wafter_2 (c : Dev nD) (t : Fin cfg0.N) : (wdat V c).after 2 t = wblk V c 2 t := by dsimp only [wdat]
theorem wafter_3 (c : Dev nD) (t : Fin cfg0.N) :
    (wdat V c).after 3 t = wout (wblk V c 0 t) (wblk V c 1 t) (wblk V c 2 t) := by dsimp only [wdat]

theorem wfound_0 (c : Dev nD) (t : Fin cfg0.N) (d) : (wdat V c).before 0 t d = wblk V c 0 t :=
  wbefore_0 V (wdat V c) (wA_eq V c 0) (wafter_0 V c) t d
theorem wfound_1 (c : Dev nD) (t : Fin cfg0.N) (d) : (wdat V c).before 1 t d = wblk V c 1 t :=
  wbefore_1 V (wdat V c) (wA_eq V c 1) (wafter_1 V c) t d
theorem wfound_2 (c : Dev nD) (t : Fin cfg0.N) (d) : (wdat V c).before 2 t d = wblk V c 2 t :=
  wbefore_2 V (wdat V c) (wA_eq V c 2) (wafter_2 V c) t d

/-- What the body is called with at point t, the windows one by one, -/
def wPre (c : Dev nD) (t : Fin cfg0.N) : sProp 𝕄 :=
  iprop((wdat V c).Φ t.castSucc ∗ (wdat V c).owesAt () t.castSucc
    ∗ (∃ d, owns (c : Thread nD τ) (st0_0 t) fullShare ((wdat V c).before 0 t d))
    ∗ (∃ d, owns (c : Thread nD τ) (st0_1 t) fullShare ((wdat V c).before 1 t d))
    ∗ (∃ d, owns (c : Thread nD τ) (st0_2 t) fullShare ((wdat V c).before 2 t d))
    ∗ (∃ d, owns (c : Thread nD τ) (st0_3 t) fullShare ((wdat V c).before 3 t d)))

/-- and what it returns. -/
def wPost (c : Dev nD) (t : Fin cfg0.N) : sProp 𝕄 :=
  iprop((wdat V c).Φ t.succ ∗ (wdat V c).owesAt () t.succ
    ∗ owns (c : Thread nD τ) (st0_0 t) fullShare ((wdat V c).after 0 t)
    ∗ owns (c : Thread nD τ) (st0_1 t) fullShare ((wdat V c).after 1 t)
    ∗ owns (c : Thread nD τ) (st0_2 t) fullShare ((wdat V c).after 2 t)
    ∗ owns (c : Thread nD τ) (st0_3 t) fullShare ((wdat V c).after 3 t))

/-- The body at any point: the inputs' buffers hold their tiles, so the triple applies; the invariant and the core's
    dues pass through unread. -/
theorem weights_body (c : Dev nD) (t : Fin cfg0.N) :
    wPre V c t ⊢ wp frame (wpE (defs₀ (F := F)) Variants.none c none) Set.univ (bodyAt0 t) (fun _ => wPost V c t) := by
  unfold wPre wPost bodyAt0
  simp only [wfound_0, wfound_1, wfound_2]
  rw [show (wdat V c).Φ t.succ = (wdat V c).Φ t.castSucc from rfl,
    show (wdat V c).owesAt () t.succ = (wdat V c).owesAt () t.castSucc from rfl,
    wafter_0, wafter_1, wafter_2, wafter_3]
  iintro ⟨HΦ, Ho, ⟨%d0, H0⟩, ⟨%d1, H1⟩, ⟨%d2, H2⟩, ⟨%d3, H3⟩⟩
  iapply (weights_triple c Set.univ _ _ _ _ _ _ _ _ _ (wblk V c 0 t) (wblk V c 1 t) (wblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem weights_obligation (c : Dev nD) : BodyObligation (wdat (F := F) V c) (defs₀ (F := F)) Variants.none () Set.univ := fun t => by
  rw [bigSep_W0, bigSep_W0]
  exact weights_body V c t

end Cert.KernelIdeal.Hand

end
-- ==== Proof.IdealProduct.lean ====
/-
  The second pallas_call multiplies: over the grid (member m, row tile b) each point reads the 256×2048 tile of x, the
  member's whole 2048×2048 weight matrix and — only at the member's first row tile (b = 0) — the member's three bias
  rows, from which it stores the bias row  bμ + softplus(bρ)·bε  into a scratch buffer that later row tiles of the same
  member read back.  Every point then stores  x_tile · W_m + bias row  (broadcast down the rows) into the result's tile.
  So the scratch carries a value between grid points: after point t it holds the bias row computed at the first point
  of t's member.  This module states that invariant, proves the body's triple in both control cases by symbolic
  execution, and packages the region's proof data and body obligation at an arbitrary valuation V on entry.
-/
import proofs.«116653_j1632087572792_2_alg».proof.Proof.Gen.KernelIdeal.Launch
import proofs.«116653_j1632087572792_2_alg».proof.Proof.Gen.KernelIdeal.Skeleton
import proofs.«116653_j1632087572792_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def pblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: the weight matrix and
    the bias rows are fetched only when the member changes, and between two such points their block index stands still. -/
theorem pbefore_0 {c : Dev nD} (dat : Dat τ (Elt F) Unit ℕ (UR sig nD τ) ℕ cfg1 c) (hA : dat.A 0 = V c (Pipeline.arrRef spec1 0))
    (hafter : ∀ t, dat.after 0 t = pblk V c 0 t) (t : Fin cfg1.N) (d) : dat.before 0 t d = pblk V c 0 t :=
  (dat.before_in_eq_fetched 0 rfl (fun _ => rfl) (fun _ _ _ => rfl) (fun t => by rw [hafter]; unfold Dat.blockOf pblk; rw [hA]; try rfl) t d).trans
    (by unfold Dat.fetched Dat.blockOf pblk; rw [hA]; try rfl)
theorem pbefore_1 {c : Dev nD} (dat : Dat τ (Elt F) Unit ℕ (UR sig nD τ) ℕ cfg1 c) (hA : dat.A 1 = V c (Pipeline.arrRef spec1 1))
    (hafter : ∀ t, dat.after 1 t = pblk V c 1 t) (t : Fin cfg1.N) (d) : dat.before 1 t d = pblk V c 1 t :=
  (dat.before_in_eq_fetched 1 rfl (fun _ => rfl) (fun _ _ _ => rfl) (fun t => by rw [hafter]; unfold Dat.blockOf pblk; rw [hA]; try rfl) t d).trans
    (by unfold Dat.fetched Dat.blockOf pblk; rw [hA]; try rfl)
theorem pbefore_2 {c : Dev nD} (dat : Dat τ (Elt F) Unit ℕ (UR sig nD τ) ℕ cfg1 c) (hA : dat.A 2 = V c (Pipeline.arrRef spec1 2))
    (hafter : ∀ t, dat.after 2 t = pblk V c 2 t) (t : Fin cfg1.N) (d) : dat.before 2 t d = pblk V c 2 t :=
  (dat.before_in_eq_fetched 2 rfl (fun _ => rfl) (fun _ _ _ => rfl) (fun t => by rw [hafter]; unfold Dat.blockOf pblk; rw [hA]; try rfl) t d).trans
    (by unfold Dat.fetched Dat.blockOf pblk; rw [hA]; try rfl)
theorem pbefore_3 {c : Dev nD} (dat : Dat τ (Elt F) Unit ℕ (UR sig nD τ) ℕ cfg1 c) (hA : dat.A 3 = V c (Pipeline.arrRef spec1 3))
    (hafter : ∀ t, dat.after 3 t = pblk V c 3 t) (t : Fin cfg1.N) (d) : dat.before 3 t d = pblk V c 3 t :=
  (dat.before_in_eq_fetched 3 rfl (fun _ => rfl) (fun _ _ _ => rfl) (fun t => by rw [hafter]; unfold Dat.blockOf pblk; rw [hA]; try rfl) t d).trans
    (by unfold Dat.fetched Dat.blockOf pblk; rw [hA]; try rfl)
theorem pbefore_4 {c : Dev nD} (dat : Dat τ (Elt F) Unit ℕ (UR sig nD τ) ℕ cfg1 c) (hA : dat.A 4 = V c (Pipeline.arrRef spec1 4))
    (hafter : ∀ t, dat.after 4 t = pblk V c 4 t) (t : Fin cfg1.N) (d) : dat.before 4 t d = pblk V c 4 t :=
  (dat.before_in_eq_fetched 4 rfl (fun _ => rfl) (fun _ _ _ => rfl) (fun t => by rw [hafter]; unfold Dat.blockOf pblk; rw [hA]; try rfl) t d).trans
    (by unfold Dat.fetched Dat.blockOf pblk; rw [hA]; try rfl)

/-! ## The control case: is this the member's first row tile? -/

/-- The body's one branch condition, from the grid coordinates: row-tile coordinate = 0. -/
abbrev firstTile (i : grid1.Coords) : Prop := (Scalar.cmpi .ne (Scalar.extui (Scalar.cmpi .eq (BitVec.ofNat 32 (i 1).val) 0#32)) 0#32) = 1#1
/-- Over the row-major grid of 8 × 16 points it holds at the points ≡ 0 (mod 16). -/
theorem firstTile_iff : ∀ t : Fin cfg1.N, firstTile (grid1.coords t) ↔ t.val % 16 = 0 :=
  (by decide +kernel : ∀ t : Fin grid1.N, firstTile (grid1.coords t) ↔ t.val % 16 = 0)

/-! ## The body's triple in each case -/

theorem zero3 : (![0, 0, 0] : Fin 3 → Nat) = fun _ => 0 := by funext a; fin_cases a <;> rfl
theorem zero2 : (![0, 0] : Fin 2 → Nat) = fun _ => 0 := by funext a; fin_cases a <;> rfl

/-- The scratch buffer, a whole scoped buffer of the kernel's own. -/
abbrev scM : Memref sig .tc .vmem S1x2048 .f32 := Memref.whole cc1_scratch0

theorem pcover_out (p0 : Vec F S1x256x2048 .f32) (y : S1x256x2048.Idx) :
    ∃ pc ∈ ([⟨Rect.unit (s := S1x256x2048) ![0, 0, 0] S1x256x2048.size inb_S1x256x2048_S1x256x2048_0_0_0, p0⟩] : List (View.Piece (Elt F) S1x256x2048 .f32)), y ∈ pc.1.set :=
  ⟨_, List.mem_singleton_self _, View.mem_set_unit_zero zero3 inb_S1x256x2048_S1x256x2048_0_0_0 y⟩
theorem pcover_scr (p0 : Vec F S1x2048 .f32) (y : S1x2048.Idx) :
    ∃ pc ∈ ([⟨Rect.unit (s := S1x2048) ![0, 0] S1x2048.size inb_S1x2048_S1x2048_0_0, p0⟩] : List (View.Piece (Elt F) S1x2048 .f32)), y ∈ pc.1.set :=
  ⟨_, List.mem_singleton_self _, View.mem_set_unit_zero zero2 inb_S1x2048_S1x2048_0_0 y⟩

set_option maxHeartbeats 1000000 in
/-- FIRST ROW TILE of a member: the scratch at anything runs to the scratch at the bias row of the three bias blocks,
    and the result's buffer to the product tile plus that row. -/
theorem product_first (c : Dev nD) (E : Set ℕ) (i : grid1.Coords) (hc : firstTile i)
    (a2 : Memref sig .tc .vmem S1x256x2048 .f32) (h2 : a2.IsWhole) (a3 : Memref sig .tc .vmem S1x2048x2048 .bf16) (h3 : a3.IsWhole)
    (a4 : Memref sig .tc .vmem S1x1x2048 .f32) (h4 : a4.IsWhole) (a5 : Memref sig .tc .vmem S1x1x2048 .f32) (h5 : a5.IsWhole)
    (a6 : Memref sig .tc .vmem S1x1x2048 .f32) (h6 : a6.IsWhole) (a7 : Memref sig .tc .vmem S1x256x2048 .f32) (h7 : a7.IsWhole)
    (a8 : Memref sig .tc .vmem S1x2048 .f32) (h8 : a8.IsWhole)
    (x : Vec F S1x256x2048 .f32) (w : Vec F S1x2048x2048 .bf16) (bμ bρ bε : Vec F S1x1x2048 .f32) (K : PUnit → sProp 𝕄) :
    iprop(owns (c : Thread nD τ) a2 fullShare x ∗ owns (c : Thread nD τ) a3 fullShare w ∗ owns (c : Thread nD τ) a4 fullShare bμ
        ∗ owns (c : Thread nD τ) a5 fullShare bρ ∗ owns (c : Thread nD τ) a6 fullShare bε
        ∗ (∃ d, owns (c : Thread nD τ) a7 fullShare d) ∗ (∃ d, owns (c : Thread nD τ) a8 fullShare d)
        ∗ (iprop(owns (c : Thread nD τ) a2 fullShare x ∗ owns (c : Thread nD τ) a3 fullShare w ∗ owns (c : Thread nD τ) a4 fullShare bμ
            ∗ owns (c : Thread nD τ) a5 fullShare bρ ∗ owns (c : Thread nD τ) a6 fullShare bε
            ∗ owns (c : Thread nD τ) a7 fullShare (k1_pay2 x w (k1_pay1 bρ bμ bε))
            ∗ owns (c : Thread nD τ) a8 fullShare (k1_pay1 bρ bμ bε)) -∗ K ⟨⟩))
      ⊢ wp frame (wpE (defs₀ (F := F)) Variants.none c none) E (cc1__matmul_kernel i a2 h2 a3 h3 a4 h4 a5 h5 a6 h6 a7 h7 a8 h8) K := by
  simp only [cc1__matmul_kernel_eq_skeleton]; unfold cc1__matmul_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf2; subst hf3; subst hf4; subst hf5; subst hf6
  sl_exec (disch := exact hc)
  sl_step
  sl_unfold_run_names
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (pcover_out _), View.canon_unit_zero zero3, View.readCov_unit_zero _ zero2]
    simp only [View.readAt_eq_ld, View.ld_unit_zero (S := S1x256x2048) zero3, View.ld_unit_zero (S := S1x2048x2048) zero3,
      View.ld_unit_zero (S := S1x1x2048) zero3]
  · iexists _; isplitr
    swap; · iexact H8
    ipureintro
    rw [View.read_writes_eq_canon _ _ _ (pcover_scr _), View.canon_unit_zero zero2]
    simp only [View.readAt_eq_ld, View.ld_unit_zero (S := S1x1x2048) zero3]

set_option maxHeartbeats 1000000 in
/-- A LATER ROW TILE of a member: the scratch at contents s is read and left; the result's buffer ends at the
    product tile plus s. The bias blocks are not touched. -/
theorem product_later (c : Dev nD) (E : Set ℕ) (i : grid1.Coords) (hc : ¬firstTile i)
    (a2 : Memref sig .tc .vmem S1x256x2048 .f32) (h2 : a2.IsWhole) (a3 : Memref sig .tc .vmem S1x2048x2048 .bf16) (h3 : a3.IsWhole)
    (a4 : Memref sig .tc .vmem S1x1x2048 .f32) (h4 : a4.IsWhole) (a5 : Memref sig .tc .vmem S1x1x2048 .f32) (h5 : a5.IsWhole)
    (a6 : Memref sig .tc .vmem S1x1x2048 .f32) (h6 : a6.IsWhole) (a7 : Memref sig .tc .vmem S1x256x2048 .f32) (h7 : a7.IsWhole)
    (a8 : Memref sig .tc .vmem S1x2048 .f32) (h8 : a8.IsWhole)
    (x : Vec F S1x256x2048 .f32) (w : Vec F S1x2048x2048 .bf16) (s : Vec F S1x2048 .f32) (K : PUnit → sProp 𝕄) :
    iprop(owns (c : Thread nD τ) a2 fullShare x ∗ owns (c : Thread nD τ) a3 fullShare w
        ∗ (∃ d, owns (c : Thread nD τ) a7 fullShare d) ∗ owns (c : Thread nD τ) a8 fullShare s
        ∗ (iprop(owns (c : Thread nD τ) a2 fullShare x ∗ owns (c : Thread nD τ) a3 fullShare w
            ∗ owns (c : Thread nD τ) a7 fullShare (k1_pay2 x w s)
            ∗ owns (c : Thread nD τ) a8 fullShare s) -∗ K ⟨⟩))
      ⊢ wp frame (wpE (defs₀ (F := F)) Variants.none c none) E (cc1__matmul_kernel i a2 h2 a3 h3 a4 h4 a5 h5 a6 h6 a7 h7 a8 h8) K := by
  simp only [cc1__matmul_kernel_eq_skeleton]; unfold cc1__matmul_kernel_skel
  unfold owns
  iintro ⟨⟨%f2, %hf2, H2⟩, ⟨%f3, %hf3, H3⟩, ⟨%d7, %f7, -, H7⟩, ⟨%f8, %hf8, H8⟩, Hk⟩
  subst hf2; subst hf3; subst hf8
  sl_exec (disch := exact hc)
  sl_step
  iapply Hk
  isplitl [H2]
  · iexists f2; isplitr; · ipureintro; rfl
    iexact H2
  isplitl [H3]
  · iexists f3; isplitr; · ipureintro; rfl
    iexact H3
  isplitl [H7]
  · iexists _; isplitr
    swap; · iexact H7
    ipureintro
    rw [View.read_writes_eq_canon _ _ _ (pcover_out _), View.canon_unit_zero zero3]
    simp only [View.readAt_eq_ld, View.ld_unit_zero (S := S1x256x2048) zero3, View.ld_unit_zero (S := S1x2048x2048) zero3,
      View.ld_unit_zero (S := S1x2048) zero2]
  · iexists f8; isplitr; · ipureintro; rfl
    iexact H8

/-! ## What the scratch holds point by point, and the region's invariant -/

theorem N1_eq : cfg1.N = 128 := N_1

/-- The first point of the member that point t belongs to (the grid is row-major, 16 row tiles per member). -/
def lead (t : Fin cfg1.N) : Fin cfg1.N := ⟨t.val / 16 * 16, by have := t.isLt; have hN : cfg1.N = 128 := N_1; omega⟩

/-- The scratch after point t: the bias row of the member's three bias blocks, as stored at the member's first point. -/
def scrAt (c : Dev nD) (t : Fin cfg1.N) : Vec F S1x2048 .f32 :=
  k1_pay1 (pblk V c 3 (lead t)) (pblk V c 2 (lead t)) (pblk V c 4 (lead t))

/-- A scoped buffer whole at some contents. -/
abbrev anyAt (c : Dev nD) (b : Ref sig .tc) : sProp 𝕄 :=
  iprop(∃ f : Buf (Elt F) ((c : Thread nD τ).loc b), ((c : Thread nD τ).loc b) ↦{fullShare} f)

/-- What the body never touches: the first region's staging buffers at anything and the generator register. -/
def idleRest (c : Dev nD) : sProp 𝕄 :=
  iprop((anyAt (F := F) c cc0_stg0_0 ∗ anyAt (F := F) c cc0_stg0_1 ∗ anyAt (F := F) c cc0_stg1_0 ∗ anyAt (F := F) c cc0_stg1_1
    ∗ anyAt (F := F) c cc0_stg2_0 ∗ anyAt (F := F) c cc0_stg2_1 ∗ anyAt (F := F) c cc0_stg3_0 ∗ anyAt (F := F) c cc0_stg3_1)
    ∗ ∃ r, prngReg c r)

/-- The scratch owned at some contents is its buffer whole at some contents. -/
theorem scr_any (c : Dev nD) :
    (iprop(∃ d, owns (c : Thread nD τ) scM fullShare d) : sProp 𝕄) = anyAt (F := F) c cc1_scratch0 := by
  simp only [scM, owns_whole]; rfl

/-- The class's invariant (every scoped non-staging buffer at anything, the register at some state) is the scratch at
    anything beside the idle rest, -/
theorem phiA_open (c : Dev nD) :
    (Pipeline.ΦA spec1 c : sProp 𝕄) ⊢ iprop((∃ d, owns (c : Thread nD τ) scM fullShare d) ∗ idleRest (F := F) c) := by
  rw [scr_any]; unfold Pipeline.ΦA idleRest; rw [scopedRest1_eq]
  iintro ⟨⟨A0, A1, A2, A3, A4, A5, A6, A7, HS⟩, Hg⟩
  isplitl [HS]
  · iexact HS
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  iexact Hg

/-- and back. -/
theorem phiA_close (c : Dev nD) :
    iprop((∃ d, owns (c : Thread nD τ) scM fullShare d) ∗ idleRest (F := F) c) ⊢ (Pipeline.ΦA spec1 c : sProp 𝕄) := by
  rw [scr_any]; unfold Pipeline.ΦA idleRest; rw [scopedRest1_eq]
  iintro ⟨HS, ⟨A0, A1, A2, A3, A4, A5, A6, A7⟩, Hg⟩
  isplitl [A0 A1 A2 A3 A4 A5 A6 A7 HS]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexact HS
  iexact Hg

/-- The region invariant before position n: before the first point the class's; afterwards the scratch at what the
    point before left in it, beside the idle rest. -/
def PhiS (c : Dev nD) : (n : ℕ) → n ≤ cfg1.N → sProp 𝕄
  | 0, _ => Pipeline.ΦA spec1 c
  | n + 1, hn => iprop(owns (c : Thread nD τ) scM fullShare (scrAt V c ⟨n, hn⟩) ∗ idleRest (F := F) c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM fullShare (scrAt V c ⟨n, hn⟩) ∗ idleRest (F := F) c) := rfl

theorem PhiS_pos (c : Dev nD) (n : ℕ) (h : n ≤ cfg1.N) (hz : n ≠ 0) :
    PhiS V c n h = iprop(owns (c : Thread nD τ) scM fullShare (scrAt V c ⟨n - 1, by omega⟩) ∗ idleRest (F := F) c) := by
  cases n with
  | zero => exact absurd rfl hz
  | succ n => rfl

/-- At any position the invariant gives the scratch at SOME contents beside the idle rest. -/
theorem PhiS_any (c : Dev nD) (n : ℕ) (h : n ≤ cfg1.N) :
    PhiS V c n h ⊢ iprop((∃ d, owns (c : Thread nD τ) scM fullShare d) ∗ idleRest (F := F) c) := by
  by_cases hz : n = 0
  · rw [PhiS_zero V c n h hz]; exact phiA_open c
  · rw [PhiS_pos V c n h hz]
    iintro ⟨HS, Hr⟩
    isplitl [HS]; · iexists _; iexact HS
    iexact Hr

/-! ## The region's proof data -/

/-- On core c: the arrays as found; after the body each input's buffer at its block and the result's at the product
    tile plus the member's bias row; the invariant `PhiS`; nothing owed; full shares. -/
def pdat (c : Dev nD) : Dat τ (Elt F) Unit ℕ (UR sig nD τ) ℕ cfg1 c where
  A w := V c (Pipeline.arrRef spec1 w)
  after w t := match w with
    | ⟨0, _⟩ => pblk V c 0 t
    | ⟨1, _⟩ => pblk V c 1 t
    | ⟨2, _⟩ => pblk V c 2 t
    | ⟨3, _⟩ => pblk V c 3 t
    | ⟨4, _⟩ => pblk V c 4 t
    | ⟨5, _⟩ => k1_pay2 (pblk V c 0 t) (pblk V c 1 t) (scrAt V c t)
  Φ t := PhiS V c t.val (Nat.le_of_lt_succ t.isLt)
  q _ := fullShare
  owed _ := 0

theorem pA_eq (c : Dev nD) (w : Fin cfg1.W) : (pdat V c).A w = V c (Pipeline.arrRef spec1 w) := by
  dsimp only [pdat]

theorem PhiS_castSucc (c : Dev nD) (t : Fin cfg1.N) :
    (pdat V c).Φ t.castSucc = PhiS V c t.val (Nat.le_of_lt t.isLt) := by
  dsimp only [pdat]; simp only [Fin.coe_castSucc]

theorem pafter_0 (c : Dev nD) (t : Fin cfg1.N) : (pdat V c).after 0 t = pblk V c 0 t := by dsimp only [pdat]
theorem pafter_1 (c : Dev nD) (t : Fin cfg1.N) : (pdat V c).after 1 t = pblk V c 1 t := by dsimp only [pdat]
theorem pafter_2 (c : Dev nD) (t : Fin cfg1.N) : (pdat V c).after 2 t = pblk V c 2 t := by dsimp only [pdat]
theorem pafter_3 (c : Dev nD) (t : Fin cfg1.N) : (pdat V c).after 3 t = pblk V c 3 t := by dsimp only [pdat]
theorem pafter_4 (c : Dev nD) (t : Fin cfg1.N) : (pdat V c).after 4 t = pblk V c 4 t := by dsimp only [pdat]
theorem pafter_5 (c : Dev nD) (t : Fin cfg1.N) :
    (pdat V c).after 5 t = k1_pay2 (pblk V c 0 t) (pblk V c 1 t) (scrAt V c t) := by dsimp only [pdat]

theorem pfound_0 (c : Dev nD) (t : Fin cfg1.N) (d) : (pdat V c).before 0 t d = pblk V c 0 t :=
  pbefore_0 V (pdat V c) (pA_eq V c 0) (pafter_0 V c) t d
theorem pfound_1 (c : Dev nD) (t : Fin cfg1.N) (d) : (pdat V c).before 1 t d = pblk V c 1 t :=
  pbefore_1 V (pdat V c) (pA_eq V c 1) (pafter_1 V c) t d
theorem pfound_2 (c : Dev nD) (t : Fin cfg1.N) (d) : (pdat V c).before 2 t d = pblk V c 2 t :=
  pbefore_2 V (pdat V c) (pA_eq V c 2) (pafter_2 V c) t d
theorem pfound_3 (c : Dev nD) (t : Fin cfg1.N) (d) : (pdat V c).before 3 t d = pblk V c 3 t :=
  pbefore_3 V (pdat V c) (pA_eq V c 3) (pafter_3 V c) t d
theorem pfound_4 (c : Dev nD) (t : Fin cfg1.N) (d) : (pdat V c).before 4 t d = pblk V c 4 t :=
  pbefore_4 V (pdat V c) (pA_eq V c 4) (pafter_4 V c) t d

/-! ## The body obligation -/

/-- What the body is called with at point t, the windows one by one, -/
def pPre (c : Dev nD) (t : Fin cfg1.N) : sProp 𝕄 :=
  iprop((pdat V c).Φ t.castSucc ∗ (pdat V c).owesAt () t.castSucc
    ∗ (∃ d, owns (c : Thread nD τ) (st1_0 t) fullShare ((pdat V c).before 0 t d))
    ∗ (∃ d, owns (c : Thread nD τ) (st1_1 t) fullShare ((pdat V c).before 1 t d))
    ∗ (∃ d, owns (c : Thread nD τ) (st1_2 t) fullShare ((pdat V c).before 2 t d))
    ∗ (∃ d, owns (c : Thread nD τ) (st1_3 t) fullShare ((pdat V c).before 3 t d))
    ∗ (∃ d, owns (c : Thread nD τ) (st1_4 t) fullShare ((pdat V c).before 4 t d))
    ∗ (∃ d, owns (c : Thread nD τ) (st1_5 t) fullShare ((pdat V c).before 5 t d)))

/-- and what it returns. -/
def pPost (c : Dev nD) (t : Fin cfg1.N) : sProp 𝕄 :=
  iprop((pdat V c).Φ t.succ ∗ (pdat V c).owesAt () t.succ
    ∗ owns (c : Thread nD τ) (st1_0 t) fullShare ((pdat V c).after 0 t)
    ∗ owns (c : Thread nD τ) (st1_1 t) fullShare ((pdat V c).after 1 t)
    ∗ owns (c : Thread nD τ) (st1_2 t) fullShare ((pdat V c).after 2 t)
    ∗ owns (c : Thread nD τ) (st1_3 t) fullShare ((pdat V c).after 3 t)
    ∗ owns (c : Thread nD τ) (st1_4 t) fullShare ((pdat V c).after 4 t)
    ∗ owns (c : Thread nD τ) (st1_5 t) fullShare ((pdat V c).after 5 t))

set_option maxHeartbeats 2000000 in
/-- The body at any point. At a member's first row tile the invariant hands over the scratch at some contents and takes
    it back at the member's bias row; at a later row tile it hands it over at that row (the point before belongs to the
    same member) and takes it back unchanged. -/
theorem product_body (c : Dev nD) (t : Fin cfg1.N) :
    pPre V c t ⊢ wp frame (wpE (defs₀ (F := F)) Variants.none c none) Set.univ (bodyAt1 t) (fun _ => pPost V c t) := by
  unfold pPre pPost bodyAt1
  simp only [pfound_0, pfound_1, pfound_2, pfound_3, pfound_4]
  rw [show (pdat V c).owesAt () t.succ = (pdat V c).owesAt () t.castSucc from rfl]
  rw [show (pdat V c).Φ t.succ = PhiS V c (t.val + 1) t.isLt from rfl, PhiS_succ]
  rw [pafter_0, pafter_1, pafter_2, pafter_3, pafter_4, pafter_5, PhiS_castSucc V c t]
  have hN : t.val < 128 := lt_of_lt_of_eq t.isLt N1_eq
  by_cases h0 : t.val % 16 = 0
  · have hl : lead t = t := Fin.ext (by show t.val / 16 * 16 = t.val; omega)
    rw [show scrAt V c ⟨t.val, t.isLt⟩ = k1_pay1 (pblk V c 3 t) (pblk V c 2 t) (pblk V c 4 t) from by
      show scrAt V c t = _; unfold scrAt; rw [hl]]
    have hany := PhiS_any V c t.val (Nat.le_of_lt t.isLt)
    iintro ⟨Hphi, Ho, ⟨%d0, H0⟩, ⟨%d1, H1⟩, ⟨%d2, H2⟩, ⟨%d3, H3⟩, ⟨%d4, H4⟩, ⟨%d5, H5⟩⟩
    ihave Hany := hany $$ Hphi
    icases Hany with ⟨HS, Hr⟩
    iapply (product_first c Set.univ (grid1.coords t) ((firstTile_iff t).mpr h0) _ _ _ _ _ _ _ _ _ _ _ _ _ _
      (pblk V c 0 t) (pblk V c 1 t) (pblk V c 2 t) (pblk V c 3 t) (pblk V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := fun e => h0 (by rw [e])
    have hprev : scrAt V c ⟨t.val - 1, by omega⟩ = scrAt V c t := by
      unfold scrAt
      rw [show lead ⟨t.val - 1, by omega⟩ = lead t from Fin.ext (by show (t.val - 1) / 16 * 16 = t.val / 16 * 16; omega)]
    rw [PhiS_pos V c _ _ hz, hprev, show scrAt V c ⟨t.val, t.isLt⟩ = scrAt V c t from rfl]
    iintro ⟨⟨HS, Hr⟩, Ho, ⟨%d0, H0⟩, ⟨%d1, H1⟩, ⟨%d2, H2⟩, ⟨%d3, H3⟩, ⟨%d4, H4⟩, ⟨%d5, H5⟩⟩
    iapply (product_later c Set.univ (grid1.coords t) (fun h => h0 ((firstTile_iff t).mp h)) _ _ _ _ _ _ _ _ _ _ _ _ _ _
      (pblk V c 0 t) (pblk V c 1 t) (scrAt V c t) _)
    isplitl [H0]; · iexact H0
    isplitl [H1]; · iexact H1
    isplitl [H5]; · iexists _; iexact H5
    isplitl [HS]; · iexact HS
    iintro ⟨H0, H1, H5, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem product_obligation (c : Dev nD) : BodyObligation (pdat (F := F) V c) (defs₀ (F := F)) Variants.none () Set.univ := fun t => by
  rw [bigSep_W1, bigSep_W1]
  exact product_body V c t

/-- What the launch hands the region is the invariant before the first point, -/
theorem product_in (c : Dev nD) : (Pipeline.ΦA spec1 c : sProp 𝕄) ⊢ (pdat V c).Φ 0 := by
  rw [show (pdat V c).Φ 0 = PhiS V c 0 (Nat.zero_le _) from rfl, PhiS_zero V c 0 _ rfl]
  try exact Idealize.SL.BI.Entails.refl _

/-- and after the last point the invariant gives it back, the scratch's contents forgotten. -/
theorem product_out (c : Dev nD) : (pdat V c).Φ (Fin.last cfg1.N) ⊢ (Pipeline.ΦA spec1 c : sProp 𝕄) := by
  rw [show (pdat V c).Φ (Fin.last cfg1.N) = PhiS V c (Fin.last cfg1.N).val (Nat.le_of_lt_succ (Fin.last cfg1.N).isLt) from rfl]
  exact (PhiS_any V c _ _).trans (phiA_close c)

end Cert.KernelIdeal.Hand

end
-- ==== Proof.IdealRun.lean ====
/-
  The run of @main: the two pallas_calls one after the other, each as a region of the pipeline library's segment list.
  The buffers' contents at the three boundaries are a fold from the launch memory: a region leaves each of its arrays
  at what its write-backs make of it and every other buffer as it found it.  The theorem `run_all` says every weakly fair
  execution terminates and every unscoped buffer ends at the last boundary's contents; from it the frame (each argument
  array is never written: it is an input window of a region, or no window at all) and the result array as the second
  region's write-backs folded.
-/
import proofs.«116653_j1632087572792_2_alg».proof.Proof.IdealWeights
import proofs.«116653_j1632087572792_2_alg».proof.Proof.IdealProduct

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- Core c's buffers at launch (the first region's entry). -/
abbrev W0 : Dev nD → Valuation τ sig (Elt F) := fun c b => (s₀ m ρ).mem ((c : Dev nD), b)
abbrev V1 : (c : Dev nD) → (b : Ref sig .tc) → Buf (Elt F) ((c : Thread nD τ).loc b) := fun c b => W0 m ρ c b
/-- After the first region: its arrays at what the pipeline leaves, every other buffer as entered. -/
def W2 (c : Dev nD) : Valuation τ sig (Elt F) :=
  Pipeline.withArrays spec0 c (W0 m ρ c) fun w => (wdat (V1 m ρ) c).arrAt w cfg0.N
theorem W2_arr (c : Dev nD) (w : Fin cfg0.W) :
    W2 m ρ c (Proc.devRef .tc (Pipeline.arrRef spec0 w)) = (wdat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (wdat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second region (the end). -/
def W4 (c : Dev nD) : Valuation τ sig (Elt F) :=
  Pipeline.withArrays spec1 c (W2 m ρ c) fun w => (pdat (V2 m ρ) c).arrAt w cfg1.N
theorem W4_arr (c : Dev nD) (w : Fin cfg1.W) :
    W4 m ρ c (Proc.devRef .tc (Pipeline.arrRef spec1 w)) = (pdat (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (pdat (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-! ### Each argument ends as launched -/

/-- An input array of the first region that the second does not stage. -/
theorem W4_in0 (c : Dev nD) (w : Fin cfg0.W) (hw : (cfg0.win w).isOut = false)
    (hne : ∀ w', Pipeline.arrRef spec1 w' ≠ Pipeline.arrRef spec0 w) :
    W4 m ρ c (Proc.devRef .tc (Pipeline.arrRef spec0 w)) = m ((c : Thread nD τ).loc (Pipeline.arrRef spec0 w)) :=
  calc W4 m ρ c (Proc.devRef .tc (Pipeline.arrRef spec0 w))
    _ = W2 m ρ c (Proc.devRef .tc (Pipeline.arrRef spec0 w)) := W4_of_ne m ρ c _ hne
    _ = V1 m ρ c (Pipeline.arrRef spec0 w) := (W2_arr m ρ c w).trans (((wdat (V1 m ρ) c).arrAt_in w hw _).trans (wA_eq (V1 m ρ) c w))
    _ = m ((c : Thread nD τ).loc (Pipeline.arrRef spec0 w)) := rfl

/-- An input array of the second region that the first does not stage. -/
theorem W4_in1 (c : Dev nD) (w : Fin cfg1.W) (hw : (cfg1.win w).isOut = false)
    (hne : ∀ w', Pipeline.arrRef spec0 w' ≠ Pipeline.arrRef spec1 w) :
    W4 m ρ c (Proc.devRef .tc (Pipeline.arrRef spec1 w)) = m ((c : Thread nD τ).loc (Pipeline.arrRef spec1 w)) :=
  calc W4 m ρ c (Proc.devRef .tc (Pipeline.arrRef spec1 w))
    _ = V2 m ρ c (Pipeline.arrRef spec1 w) := (W4_arr m ρ c w).trans (((pdat (V2 m ρ) c).arrAt_in w hw _).trans (pA_eq (V2 m ρ) c w))
    _ = W0 m ρ c (Proc.devRef .tc (Pipeline.arrRef spec1 w)) := W2_of_ne m ρ c _ hne
    _ = m ((c : Thread nD τ).loc (Pipeline.arrRef spec1 w)) := rfl

theorem W4_main_arg0 (c : Dev nD) : W4 m ρ c (Proc.devRef .tc main_arg0) = m ((c : Thread nD τ).loc main_arg0) :=
  W4_in1 m ρ c 0 rfl (by decide)
theorem W4_main_arg1 (c : Dev nD) : W4 m ρ c (Proc.devRef .tc main_arg1) = m ((c : Thread nD τ).loc main_arg1) :=
  W4_in0 m ρ c 0 rfl (by decide)
theorem W4_main_arg2 (c : Dev nD) : W4 m ρ c (Proc.devRef .tc main_arg2) = m ((c : Thread nD τ).loc main_arg2) :=
  W4_in0 m ρ c 1 rfl (by decide)
theorem W4_main_arg3 (c : Dev nD) : W4 m ρ c (Proc.devRef .tc main_arg3) = m ((c : Thread nD τ).loc main_arg3) :=
  W4_in1 m ρ c 2 rfl (by decide)
theorem W4_main_arg4 (c : Dev nD) : W4 m ρ c (Proc.devRef .tc main_arg4) = m ((c : Thread nD τ).loc main_arg4) :=
  W4_in1 m ρ c 3 rfl (by decide)
theorem W4_main_arg5 (c : Dev nD) : W4 m ρ c (Proc.devRef .tc main_arg5) = m ((c : Thread nD τ).loc main_arg5) :=
  W4_in0 m ρ c 2 rfl (by decide)
theorem W4_main_arg6 (c : Dev nD) : W4 m ρ c (Proc.devRef .tc main_arg6) = m ((c : Thread nD τ).loc main_arg6) :=
  W4_in1 m ρ c 4 rfl (by decide)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => wdat (V1 m ρ) c
  | ⟨1, _⟩ => fun c => pdat (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region: entered from every unscoped buffer at the launch contents, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (weights_obligation (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from `W2`, left at `W4`. Its invariant takes the class's at the first point and gives
    it back after the last (the carried scratch's contents forgotten). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (product_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.Entails.trans (Q := (Pipeline.ΦA spec1 c : sProp 𝕄)) ?_ (product_in (V2 m ρ) c)
    unfold Pipeline.ΦA
    show (_ : sProp 𝕄) ⊢ (_ : sProp 𝕄)
    iintro ⟨Hp, -, Hr⟩
    isplitl [Hr]; · iexact Hr
    iexact Hp
  hout c := by
    rw [Pipeline.ownSems0_none]
    refine Idealize.SL.BI.Entails.trans (Q := (Pipeline.ΦA spec1 c : sProp 𝕄)) (product_out (V2 m ρ) c) ?_
    unfold Pipeline.ΦA
    show (_ : sProp 𝕄) ⊢ (_ : sProp 𝕄)
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.KernelIdeal.Hand

end
-- ==== Proof.Spec.lean ====
/-
  The function both programs compute, on the extended reals.  For each ensemble member m, a weight matrix and a bias
  row are sampled by the reparameterisation  μ + softplus(ρ)·ε,  and the member's batch of rows is multiplied by the
  weight matrix and the bias row added to every row:

      out(m, r, o) = Σ_k x(m, r, k) · (wμ + softplus(wρ)·wε)(m, k, o)  +  (bμ + softplus(bρ)·bε)(m, 0, o).

  softplus is written the way both programs spell it, max(r, 0) + log(1 + exp(−|r|)) with |r| = max(r, −r); both also
  guard it by a comparison of r − 0 with itself, which over the extended reals never holds.  Nothing here needs the
  inputs finite: the two programs are the same arrangement of sums, products and softplus.
-/
import Idealize.ShloMosaic.PureOps.Ideal
import Idealize.ShloMosaic.PureOps.Ideal.Laws
import Idealize.ShloMosaic.Lib.ValueIdx

noncomputable section

open scoped BigOperators

namespace Cert.SampledDense

open Idealize.ShloMosaic Idealize.ShloMosaic.ValueIdx

abbrev SX : Shape := ⟨3, ![8, 4096, 2048]⟩
abbrev SW : Shape := ⟨3, ![8, 2048, 2048]⟩
abbrev SB : Shape := ⟨3, ![8, 1, 2048]⟩

/-- softplus, max(r, 0) + log(1 + exp(−|r|)). -/
def softplus (r : EReal) : EReal := max r 0 + Ideal.log1p (Ideal.exp (-(max r (-r))))

/-- One reparameterised sample, μ + softplus(ρ)·ε. -/
def sample (μ ρ ε : EReal) : EReal := μ + softplus ρ * ε

/-- The result at member m, row r, output column o. -/
def out (x : SX.Idx → EReal) (wμ wρ : SW.Idx → EReal) (bμ bρ : SB.Idx → EReal) (wε : SW.Idx → EReal) (bε : SB.Idx → EReal)
    (m : Fin 8) (r : Fin 4096) (o : Fin 2048) : EReal :=
  (∑ k : Fin 2048, x (ix3 m r k) * sample (wμ (ix3 m k o)) (wρ (ix3 m k o)) (wε (ix3 m k o)))
    + sample (bμ (ix3 m (0 : Fin 1) o)) (bρ (ix3 m (0 : Fin 1) o)) (bε (ix3 m (0 : Fin 1) o))

/-- The result array. -/
def G (x : SX.Idx → EReal) (wμ wρ : SW.Idx → EReal) (bμ bρ : SB.Idx → EReal) (wε : SW.Idx → EReal) (bε : SB.Idx → EReal) :
    SX.Idx → EReal := fun i => out x wμ wρ bμ bρ wε bε (i 0) (i 1) (i 2)

/-- The sampled weight array (what the first pallas_call leaves for the second). -/
def W (wμ wρ wε : SW.Idx → EReal) : SW.Idx → EReal := fun i => sample (wμ i) (wρ i) (wε i)

/-- A value is never different from itself: the guards' comparison reads 0. -/
theorem cmp_one_self (x : EReal) : Ideal.cmp .one x x = 0#1 := by simp [Ideal.cmp]
theorem cmp_une_self (x : EReal) : Ideal.cmp .une x x = 0#1 := by simp [Ideal.cmp]

/-- softplus in the kernel's spelling: the exponent written 0 − |r − 0|, the guard an ordered comparison. -/
theorem kernel_softplus (r : EReal) :
    Scalar.select (Ideal.cmp .one (r - 0) (r - 0)) (r + 0) (max r 0 + Ideal.log1p (Ideal.exp (0 - max (r - 0) (-(r - 0)))))
      = softplus r := by
  rw [sub_zero, cmp_one_self, select_zero, zero_sub]; rfl

/-- softplus in the host's spelling: the exponent written −|r − 0|, the guard an unordered comparison. -/
theorem host_softplus (r : EReal) :
    Scalar.select (Ideal.cmp .une (r - 0) (r - 0)) (r + 0) (max r 0 + Ideal.log1p (Ideal.exp (-(max (r - 0) (-(r - 0))))))
      = softplus r := by
  rw [sub_zero, cmp_une_self, select_zero]; rfl

end Cert.SampledDense

end
-- ==== Proof.LibRowsProduct.lean ====
/-
  The product of an a × K array by a K × b array with the one axis of extent K contracted, read at the entry
  (p, u) on the extended reals: the finite sum over k of lhs (p, k) · rhs (k, u).  Two spellings of the same
  sum are read: the product a kernel forms into the zero accumulator, and the host's general dot product, which
  has no accumulator.  The operands may be typed at any float formats (on the extended reals a format is only a
  label).  The dimension record enters through its contracted rank and extent and four facts about where it
  sends an output index and a contraction index; nothing here knows a program.
-/
import Idealize.ShloMosaic.Lib.ValueIdx
import Idealize.ShloMosaic.PureOps.Ideal.Laws

noncomputable section

open scoped BigOperators

namespace Cert.RowsProduct

open Idealize.ShloMosaic Idealize.ShloMosaic.ValueIdx

variable {a K b : ℕ} {φ₁ φ₂ : FTy}

/-- With the left operand's rows following the output's rows, the right operand's columns following the output's
    columns, and the contracted coordinate running along the left operand's columns and the right operand's rows,
    the two operand indices at output entry (p, u) and contraction coordinate k are (p, k) and (k, u). -/
theorem operand_indices (D : DotDims ⟨2, ![a, K]⟩ ⟨2, ![K, b]⟩ ⟨2, ![a, b]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin a) (u : Fin b) (k : Fin K) :
    D.lhsIdx (ix2 p u) ((contrEquiv1 D K hr hs).symm k) = ix2 p k
      ∧ D.rhsIdx (ix2 p u) ((contrEquiv1 D K hr hs).symm k) = ix2 k u := by
  have hk := contrEquiv1_symm_val D K hr hs k
  refine ⟨funext fun ax => Fin.ext ?_, funext fun ax => Fin.ext ?_⟩
  · match ax with
    | ⟨0, _⟩ => exact hl0 _ _
    | ⟨1, _⟩ => exact (hl1 _ _).trans hk
  · match ax with
    | ⟨0, _⟩ => exact (hr0 _ _).trans hk
    | ⟨1, _⟩ => exact hr1 _ _

/-- The product into the zero accumulator, at entry (p, u), is Σ_k lhs (p, k) · rhs (k, u). -/
theorem matmul_zero_rows_apply (D : DotDims ⟨2, ![a, K]⟩ ⟨2, ![K, b]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.matmul D prec lhs rhs (constant ⟨2, ![a, b]⟩ .f32 0x00000000#32) (ix2 p u)
      = ∑ k : Fin K, lhs (ix2 p k) * rhs (ix2 k u) := by
  rw [Ideal.matmul_constant_zero_apply, ← Equiv.sum_comp (contrEquiv1 D K hr hs).symm]
  refine Finset.sum_congr rfl fun k _ => ?_
  obtain ⟨el, er⟩ := operand_indices D hr hs hl0 hl1 hr0 hr1 p u k
  rw [el, er]

/-- The host's general dot product, at entry (p, u), is the same sum, whatever its schedule key. -/
theorem dotGeneral_rows_apply (D : DotDims ⟨2, ![a, K]⟩ ⟨2, ![K, b]⟩ ⟨2, ![a, b]⟩) (prec : Option ContractPrecision)
    (sched : HostSchedule)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.dotGeneral D prec sched lhs rhs (ix2 p u) = ∑ k : Fin K, lhs (ix2 p k) * rhs (ix2 k u) := by
  rw [Ideal.dotGeneral_apply, ← Equiv.sum_comp (contrEquiv1 D K hr hs).symm]
  refine Finset.sum_congr rfl fun k _ => ?_
  obtain ⟨el, er⟩ := operand_indices D hr hs hl0 hl1 hr0 hr1 p u k
  rw [el, er]

end Cert.RowsProduct

end
-- ==== Proof.IdealPayloads.lean ====
/-
  The three values the kernels' bodies store, read at one index on the extended reals:
  the weight tile is the reparameterised sample of the three input tiles, entry by entry; the bias row likewise; and the
  product tile is, at row r and column o, the sum over k of x(r, k) · w(k, o) plus the bias row's entry o.
  Rounding a tile to bf16 is the identity here, and the leading unit axes of the blocks are dropped and restored by
  shape casts that do not move an entry.
-/
import proofs.«116653_j1632087572792_2_alg».proof.Proof.Gen.KernelIdeal.Skeleton
import proofs.«116653_j1632087572792_2_alg».proof.Proof.Spec
import proofs.«116653_j1632087572792_2_alg».proof.Proof.LibRowsProduct
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payloads

open Cert.KernelIdeal Cert.KernelIdeal.Gen Idealize.ShloMosaic Idealize.ShloMosaic.ValueIdx Cert.SampledDense

/-- The weight tile at (0, a, b): the sample of the three input tiles' entries there. -/
theorem weightTile_apply (xρ xμ xε : Vec Ideal S1x1024x1024 .f32) (a b : Fin 1024) :
    k0_pay1 xρ xμ xε (ix3 (0 : Fin 1) a b)
      = sample (xμ (ix3 (0 : Fin 1) a b)) (xρ (ix3 (0 : Fin 1) a b)) (xε (ix3 (0 : Fin 1) a b)) := by
  unfold k0_pay1
  refine (shapeCast_ab_1ab_apply _ shapeCasts_S1024x1024_S1x1024x1024 0 a b).trans ?_
  simp only [truncf, addf, mulf, select, cmpf, subf, maximumf, broadcast, absf, exp, log1p, shapeCast_1ab_ab_apply,
    Ideal.truncf_def, Ideal.addf_def, Ideal.mulf_def, Ideal.subf_def, Ideal.maximumf_def, Ideal.absf_def, Ideal.exp_def,
    Ideal.log1p_def, Ideal.cmpf_def, Ideal.ofBits_def, Ideal.ofBits_zero_f32]
  rw [kernel_softplus]; rfl

/-- The bias row at (0, o): the sample of the three bias blocks' entries at (0, 0, o). -/
theorem biasRow_apply (bρ bμ bε : Vec Ideal S1x1x2048 .f32) (o : Fin 2048) :
    k1_pay1 bρ bμ bε (ix2 (0 : Fin 1) o)
      = sample (bμ (ix3 (0 : Fin 1) (0 : Fin 1) o)) (bρ (ix3 (0 : Fin 1) (0 : Fin 1) o)) (bε (ix3 (0 : Fin 1) (0 : Fin 1) o)) := by
  unfold k1_pay1
  rw [shapeCast_self]
  simp only [addf, mulf, select, cmpf, subf, maximumf, broadcast, absf, exp, log1p, shapeCast_1ab_ab_apply,
    Ideal.addf_def, Ideal.mulf_def, Ideal.subf_def, Ideal.maximumf_def, Ideal.absf_def, Ideal.exp_def,
    Ideal.log1p_def, Ideal.cmpf_def, Ideal.ofBits_def, Ideal.ofBits_zero_f32]
  rw [kernel_softplus]; rfl

/-! ## The matrix product's dimension record: where it sends an output index and a contraction index -/

theorem dot_l0 (j : S256x2048.Idx) (q : dot_S256x2048_S2048x2048_S256x2048_1_0_0_1_n_n.contr.Idx) :
    (dot_S256x2048_S2048x2048_S256x2048_1_0_0_1_n_n.lhsIdx j q 0).val = (j 0).val := by
  unfold DotDims.lhsIdx
  rw [dif_neg (show ¬(0 : Fin S256x2048.rank) ∈ dot_S256x2048_S2048x2048_S256x2048_1_0_0_1_n_n.lhsBatch by decide),
    dif_pos (show (0 : Fin S256x2048.rank) ∈ dot_S256x2048_S2048x2048_S256x2048_1_0_0_1_n_n.lhsNonContracting by decide)]
  rfl
theorem dot_l1 (j : S256x2048.Idx) (q : dot_S256x2048_S2048x2048_S256x2048_1_0_0_1_n_n.contr.Idx) :
    (dot_S256x2048_S2048x2048_S256x2048_1_0_0_1_n_n.lhsIdx j q 1).val = (q ⟨0, by decide⟩).val :=
  dot_S256x2048_S2048x2048_S256x2048_1_0_0_1_n_n.lhsIdx_val_of_single rfl j q
theorem dot_r0 (j : S256x2048.Idx) (q : dot_S256x2048_S2048x2048_S256x2048_1_0_0_1_n_n.contr.Idx) :
    (dot_S256x2048_S2048x2048_S256x2048_1_0_0_1_n_n.rhsIdx j q 0).val = (q ⟨0, by decide⟩).val :=
  dot_S256x2048_S2048x2048_S256x2048_1_0_0_1_n_n.rhsIdx_val_of_single rfl j q
theorem dot_r1 (j : S256x2048.Idx) (q : dot_S256x2048_S2048x2048_S256x2048_1_0_0_1_n_n.contr.Idx) :
    (dot_S256x2048_S2048x2048_S256x2048_1_0_0_1_n_n.rhsIdx j q 1).val = (j 1).val := by
  unfold DotDims.rhsIdx
  rw [dif_neg (show ¬(1 : Fin S2048x2048.rank) ∈ dot_S256x2048_S2048x2048_S256x2048_1_0_0_1_n_n.rhsBatch by decide),
    dif_pos (show (1 : Fin S2048x2048.rank) ∈ dot_S256x2048_S2048x2048_S256x2048_1_0_0_1_n_n.rhsNonContracting by decide)]
  rfl

/-- The product tile at (0, r, o): Σ_k x(0, r, k) · w(0, k, o), plus the scratch row's entry o. -/
theorem productTile_apply (x : Vec Ideal S1x256x2048 .f32) (w : Vec Ideal S1x2048x2048 .bf16) (s : Vec Ideal S1x2048 .f32)
    (r : Fin 256) (o : Fin 2048) :
    k1_pay2 x w s (ix3 (0 : Fin 1) r o)
      = (∑ k : Fin 2048, x (ix3 (0 : Fin 1) r k) * w (ix3 (0 : Fin 1) k o)) + s (ix2 (0 : Fin 1) o) := by
  unfold k1_pay2
  refine (shapeCast_ab_1ab_apply _ shapeCasts_S256x2048_S1x256x2048 0 r o).trans ?_
  refine (congrArg₂ (fun p q : EReal => p + q)
    (Cert.RowsProduct.matmul_zero_rows_apply dot_S256x2048_S2048x2048_S256x2048_1_0_0_1_n_n none rfl rfl
      dot_l0 dot_l1 dot_r0 dot_r1 _ _ r o)
    (broadcastTo_1b_ab_apply s broadcasts_S1x2048_S256x2048 r o)).trans ?_
  refine congrArg (fun p : EReal => p + s (ix2 (0 : Fin 1) o)) (Finset.sum_congr rfl fun k _ => ?_)
  show shapeCast S256x2048 x shapeCasts_S1x256x2048_S256x2048 (ix2 r k)
    * shapeCast S2048x2048 w shapeCasts_S1x2048x2048_S2048x2048 (ix2 k o) = _
  rw [shapeCast_1ab_ab_apply, shapeCast_1ab_ab_apply]

end Cert.KernelIdeal.Payloads

end
-- ==== Proof.IdealArrays.lean ====
/-
  From blocks to arrays, for the idealized kernel at the extended reals.
  First region: grid point t = (m, i, j) writes back the 1024×1024 tile at block (m, i, j) of the weight array, and that
  tile is the sample of the same tiles of μ, ρ, ε; the 8·2·2 tiles cover the array, so the array ends at the sampled
  weights W.  Second region: grid point t = (m, b) writes back rows 256·b … 256·b+255 of member m of the result, each
  entry the product sum over the member's whole weight matrix plus the member's bias row (stored in the scratch at the
  member's first point, point 16·m); the 8·16 blocks cover the result, so it ends at the specification's array.
-/
import proofs.«116653_j1632087572792_2_alg».proof.Proof.IdealRun
import proofs.«116653_j1632087572792_2_alg».proof.Proof.IdealPayloads

set_option maxRecDepth 16384

noncomputable section

open scoped BigOperators

namespace Cert.KernelIdeal.Arrays

open Idealize.ShloMosaic Idealize.ShloMosaic.TcCoe Idealize.SL.Sem
open Idealize.ShloMosaic.Pipeline (Dat Cfg Window)
open Cert.KernelIdeal Cert.KernelIdeal.Gen Cert.KernelIdeal.Hand Cert.KernelIdeal.Payloads
open Idealize.ShloMosaic.ValueIdx Cert.SampledDense

variable (V : (c : Dev nD) → (b : Ref sig .tc) → Buf (Elt Ideal) ((c : Thread nD τ).loc b))

/-! ## The weight array -/

/-- A weight tile of three tiles that are the same block of three arrays is that block of the sampled weights. -/
theorem weights_point (xμ xρ xε : Vec Ideal S1x1024x1024 .f32) (Aμ Aρ Aε : SW.Idx → EReal) (e : S1x1024x1024.Idx → SW.Idx)
    (hμ : ∀ y, xμ y = Aμ (e y)) (hρ : ∀ y, xρ y = Aρ (e y)) (hε : ∀ y, xε y = Aε (e y)) :
    k0_pay1 xρ xμ xε = fun y => W Aμ Aρ Aε (e y) := by
  funext y
  obtain ⟨u, a, b, rfl⟩ : ∃ (u : Fin 1) (a b : Fin 1024), y = ix3 u a b := ⟨y 0, y 1, y 2, eq_ix3 y⟩
  obtain rfl : u = 0 := Subsingleton.elim _ _
  rw [weightTile_apply, hμ, hρ, hε]; rfl

/-- The four windows of the first region move together over the grid, block (m, i, j) at point (m, i, j). -/
theorem widx_facts : ∀ t : Fin cfg0.N, win0_0.index t = win0_3.index t ∧ win0_1.index t = win0_3.index t
    ∧ win0_2.index t = win0_3.index t :=
  (by decide +kernel : ∀ t : Fin grid0.N, _)

/-- Every block of the weight array is some point's. -/
theorem widx_onto : ∀ (q0 : Fin 8) (q1 : Fin 2) (q2 : Fin 2), ∃ t : Fin cfg0.N, win0_3.index t = ![q0.val, q1.val, q2.val] :=
  (by decide +kernel : ∀ (q0 : Fin 8) (q1 : Fin 2) (q2 : Fin 2), ∃ t : Fin grid0.N, win0_3.index t = ![q0.val, q1.val, q2.val])

/-- What point t writes back is block t of the sampled weights of the arrays as the region finds them. -/
theorem weights_flushed (c : Dev nD) (t : Fin cfg0.N) :
    (wdat V c).flushed 3 t = ((cfg0.win 3).blk t).view.read (Elt Ideal)
      (W (V c main_arg1) (V c main_arg2) (V c main_arg5)) := by
  show (cfg0.win 3).cut (grid0.coords t) ((wdat V c).after 3 t) = _
  rw [wafter_3]
  unfold wout
  rw [View.canon_unit_zero zero3]
  simp only [View.ld_unit_zero (S := S1x1024x1024) zero3]
  obtain ⟨e0, e1, e2⟩ := widx_facts t
  refine (weights_point _ _ _ (V c main_arg1) (V c main_arg2) (V c main_arg5) (fun y => ((cfg0.win 3).blk t).view.emb y) ?_ ?_ ?_).trans rfl
  · intro y
    show V c main_arg1 (((cfg0.win 0).blk t).view.emb y) = V c main_arg1 (((cfg0.win 3).blk t).view.emb y)
    refine congrArg _ (funext fun a => Fin.ext ?_)
    show win0_0.index t a * S1x1024x1024.size a + 1 * (y a).val = win0_3.index t a * S1x1024x1024.size a + 1 * (y a).val
    rw [e0]
  · intro y
    show V c main_arg2 (((cfg0.win 1).blk t).view.emb y) = V c main_arg2 (((cfg0.win 3).blk t).view.emb y)
    refine congrArg _ (funext fun a => Fin.ext ?_)
    show win0_1.index t a * S1x1024x1024.size a + 1 * (y a).val = win0_3.index t a * S1x1024x1024.size a + 1 * (y a).val
    rw [e1]
  · intro y
    show V c main_arg5 (((cfg0.win 2).blk t).view.emb y) = V c main_arg5 (((cfg0.win 3).blk t).view.emb y)
    refine congrArg _ (funext fun a => Fin.ext ?_)
    show win0_2.index t a * S1x1024x1024.size a + 1 * (y a).val = win0_3.index t a * S1x1024x1024.size a + 1 * (y a).val
    rw [e2]

/-- An index of the weight array is in point t's block iff each coordinate is in the block's range on its axis. -/
theorem wmem_blk (t : Fin cfg0.N) (i : S8x2048x2048.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v0).slice (win0_3.rect t)).set ↔ _
  rw [View.set_slice_whole, Rect.mem_set_unit]
  exact Iff.rfl

/-- The tiles cover the weight array: entry (m, k, o) lies in the block (m, k / 1024, o / 1024). -/
theorem weights_cover (i : S8x2048x2048.Idx) :
    ∃ t : Fin cfg0.N, (cfg0.win 3).flush t = true ∧ i ∈ ((cfg0.win 3).blk t).view.set := by
  have h0 : (i 0).val < 8 := (i 0).isLt
  have h1 : (i 1).val < 2048 := (i 1).isLt
  have h2 : (i 2).val < 2048 := (i 2).isLt
  obtain ⟨t, ht⟩ := widx_onto ⟨(i 0).val, h0⟩ ⟨(i 1).val / 1024, by omega⟩ ⟨(i 2).val / 1024, by omega⟩
  have q0 : win0_3.index t (0 : Fin 3) = (i 0).val := congrFun ht 0
  have q1 : win0_3.index t (1 : Fin 3) = (i 1).val / 1024 := congrFun ht 1
  have q2 : win0_3.index t (2 : Fin 3) = (i 2).val / 1024 := congrFun ht 2
  refine ⟨t, flush0_3 t, ?_⟩
  rw [wmem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega

/-- THE WEIGHT ARRAY after the first region: the sampled weights of μ, ρ, ε as the region finds them. -/
theorem weights_final (c : Dev nD) :
    (wdat V c).arrAt 3 cfg0.N = W (V c main_arg1) (V c main_arg2) (V c main_arg5) :=
  (wdat V c).arrAt_eq_of_cover 3 _ (fun t _ => weights_flushed V c t) weights_cover

/-! ## The result array -/

/-- The result entry from the arrays the second region reads: x, the weight array it finds, and the three bias arrays. -/
def res (X : SX.Idx → EReal) (Wt : SW.Idx → EReal) (Bμ Bρ Bε : SB.Idx → EReal) (m : Fin 8) (r : Fin 4096) (o : Fin 2048) : EReal :=
  (∑ k : Fin 2048, X (ix3 m r k) * Wt (ix3 m k o))
    + sample (Bμ (ix3 m (0 : Fin 1) o)) (Bρ (ix3 m (0 : Fin 1) o)) (Bε (ix3 m (0 : Fin 1) o))

/-- A product tile whose operands are, entry by entry, rows rr(·) of member mm of x, member mm's weight matrix and member
    mm's bias rows, is the result's entries at the indices e(·) of those rows. -/
theorem product_point (x : Vec Ideal S1x256x2048 .f32) (w : Vec Ideal S1x2048x2048 .bf16) (bρ bμ bε : Vec Ideal S1x1x2048 .f32)
    (X : SX.Idx → EReal) (Wt : SW.Idx → EReal) (Bμ Bρ Bε : SB.Idx → EReal) (mm : Fin 8) (rr : Fin 256 → Fin 4096)
    (e : S1x256x2048.Idx → SX.Idx)
    (hx : ∀ (r : Fin 256) (k : Fin 2048), x (ix3 (0 : Fin 1) r k) = X (ix3 mm (rr r) k))
    (hw : ∀ (k o : Fin 2048), w (ix3 (0 : Fin 1) k o) = Wt (ix3 mm k o))
    (hμ : ∀ o : Fin 2048, bμ (ix3 (0 : Fin 1) (0 : Fin 1) o) = Bμ (ix3 mm (0 : Fin 1) o))
    (hρ : ∀ o : Fin 2048, bρ (ix3 (0 : Fin 1) (0 : Fin 1) o) = Bρ (ix3 mm (0 : Fin 1) o))
    (hε : ∀ o : Fin 2048, bε (ix3 (0 : Fin 1) (0 : Fin 1) o) = Bε (ix3 mm (0 : Fin 1) o))
    (he : ∀ (r : Fin 256) (o : Fin 2048), e (ix3 (0 : Fin 1) r o) = ix3 mm (rr r) o) :
    k1_pay2 x w (k1_pay1 bρ bμ bε) = fun y => res X Wt Bμ Bρ Bε (e y 0) (e y 1) (e y 2) := by
  funext y
  obtain ⟨u, r, o, rfl⟩ : ∃ (u : Fin 1) (r : Fin 256) (o : Fin 2048), y = ix3 u r o := ⟨y 0, y 1, y 2, eq_ix3 y⟩
  obtain rfl : u = 0 := Subsingleton.elim _ _
  rw [productTile_apply, biasRow_apply, hμ, hρ, hε]
  simp only [hx, hw, he]
  rfl

/-- Over the row-major grid of 8 × 16 points, point t is member t / 16, row tile t % 16: x and the result move with both,
    the weight matrix and the bias rows with the member only. -/
theorem pidx_facts : ∀ t : Fin cfg1.N,
    win1_0.index t (0 : Fin 3) = t.val / 16 ∧ win1_0.index t (1 : Fin 3) = t.val % 16 ∧ win1_0.index t (2 : Fin 3) = 0
    ∧ win1_1.index t (0 : Fin 3) = t.val / 16 ∧ win1_1.index t (1 : Fin 3) = 0 ∧ win1_1.index t (2 : Fin 3) = 0
    ∧ win1_2.index t (0 : Fin 3) = t.val / 16 ∧ win1_2.index t (1 : Fin 3) = 0 ∧ win1_2.index t (2 : Fin 3) = 0
    ∧ win1_3.index t (0 : Fin 3) = t.val / 16 ∧ win1_3.index t (1 : Fin 3) = 0 ∧ win1_3.index t (2 : Fin 3) = 0
    ∧ win1_4.index t (0 : Fin 3) = t.val / 16 ∧ win1_4.index t (1 : Fin 3) = 0 ∧ win1_4.index t (2 : Fin 3) = 0
    ∧ win1_5.index t (0 : Fin 3) = t.val / 16 ∧ win1_5.index t (1 : Fin 3) = t.val % 16 ∧ win1_5.index t (2 : Fin 3) = 0 :=
  (by decide +kernel : ∀ t : Fin grid1.N, _)

/-- Every block of the result is some point's. -/
theorem pidx_onto : ∀ (q0 : Fin 8) (q1 : Fin 16), ∃ t : Fin cfg1.N, win1_5.index t = ![q0.val, q1.val, 0] :=
  (by decide +kernel : ∀ (q0 : Fin 8) (q1 : Fin 16), ∃ t : Fin grid1.N, win1_5.index t = ![q0.val, q1.val, 0])

/-- What point t writes back is block t of the result computed from the arrays as the region finds them. -/
theorem product_flushed (c : Dev nD) (t : Fin cfg1.N) :
    (pdat V c).flushed 5 t = ((cfg1.win 5).blk t).view.read (Elt Ideal)
      (fun i => res (V c main_arg0) (V c main_v0) (V c main_arg3) (V c main_arg4) (V c main_arg6) (i 0) (i 1) (i 2)) := by
  show (cfg1.win 5).cut (grid1.coords t) ((pdat V c).after 5 t) = _
  rw [pafter_5]
  unfold scrAt
  have hN : t.val < 128 := lt_of_lt_of_eq t.isLt N1_eq
  obtain ⟨a00, a01, a02, a10, a11, a12, -, -, -, -, -, -, -, -, -, a50, a51, a52⟩ := pidx_facts t
  obtain ⟨-, -, -, -, -, -, b20, b21, b22, b30, b31, b32, b40, b41, b42, -, -, -⟩ := pidx_facts (lead t)
  have hl : (lead t).val / 16 = t.val / 16 := by show t.val / 16 * 16 / 16 = t.val / 16; omega
  refine (product_point _ _ _ _ _ (V c main_arg0) (V c main_v0) (V c main_arg3) (V c main_arg4) (V c main_arg6)
    ⟨t.val / 16, by omega⟩ (fun r => ⟨t.val % 16 * 256 + r.val, by have := r.isLt; omega⟩)
    (fun y => ((cfg1.win 5).blk t).view.emb y) ?_ ?_ ?_ ?_ ?_ ?_).trans rfl
  · intro r k
    show V c main_arg0 (((cfg1.win 0).blk t).view.emb (ix3 (0 : Fin 1) r k)) = _
    refine congrArg _ (funext fun a => Fin.ext ?_)
    match a with
    | ⟨0, _⟩ => show win1_0.index t (0 : Fin 3) * 1 + 1 * 0 = t.val / 16; omega
    | ⟨1, _⟩ => show win1_0.index t (1 : Fin 3) * 256 + 1 * r.val = t.val % 16 * 256 + r.val; omega
    | ⟨2, _⟩ => show win1_0.index t (2 : Fin 3) * 2048 + 1 * k.val = k.val; omega
  · intro k o
    show V c main_v0 (((cfg1.win 1).blk t).view.emb (ix3 (0 : Fin 1) k o)) = _
    refine congrArg _ (funext fun a => Fin.ext ?_)
    match a with
    | ⟨0, _⟩ => show win1_1.index t (0 : Fin 3) * 1 + 1 * 0 = t.val / 16; omega
    | ⟨1, _⟩ => show win1_1.index t (1 : Fin 3) * 2048 + 1 * k.val = k.val; omega
    | ⟨2, _⟩ => show win1_1.index t (2 : Fin 3) * 2048 + 1 * o.val = o.val; omega
  · intro o
    show V c main_arg3 (((cfg1.win 2).blk (lead t)).view.emb (ix3 (0 : Fin 1) (0 : Fin 1) o)) = _
    refine congrArg _ (funext fun a => Fin.ext ?_)
    match a with
    | ⟨0, _⟩ => show win1_2.index (lead t) (0 : Fin 3) * 1 + 1 * 0 = t.val / 16; omega
    | ⟨1, _⟩ => show win1_2.index (lead t) (1 : Fin 3) * 1 + 1 * 0 = 0; omega
    | ⟨2, _⟩ => show win1_2.index (lead t) (2 : Fin 3) * 2048 + 1 * o.val = o.val; omega
  · intro o
    show V c main_arg4 (((cfg1.win 3).blk (lead t)).view.emb (ix3 (0 : Fin 1) (0 : Fin 1) o)) = _
    refine congrArg _ (funext fun a => Fin.ext ?_)
    match a with
    | ⟨0, _⟩ => show win1_3.index (lead t) (0 : Fin 3) * 1 + 1 * 0 = t.val / 16; omega
    | ⟨1, _⟩ => show win1_3.index (lead t) (1 : Fin 3) * 1 + 1 * 0 = 0; omega
    | ⟨2, _⟩ => show win1_3.index (lead t) (2 : Fin 3) * 2048 + 1 * o.val = o.val; omega
  · intro o
    show V c main_arg6 (((cfg1.win 4).blk (lead t)).view.emb (ix3 (0 : Fin 1) (0 : Fin 1) o)) = _
    refine congrArg _ (funext fun a => Fin.ext ?_)
    match a with
    | ⟨0, _⟩ => show win1_4.index (lead t) (0 : Fin 3) * 1 + 1 * 0 = t.val / 16; omega
    | ⟨1, _⟩ => show win1_4.index (lead t) (1 : Fin 3) * 1 + 1 * 0 = 0; omega
    | ⟨2, _⟩ => show win1_4.index (lead t) (2 : Fin 3) * 2048 + 1 * o.val = o.val; omega
  · intro r o
    refine funext fun a => Fin.ext ?_
    match a with
    | ⟨0, _⟩ => show win1_5.index t (0 : Fin 3) * 1 + 1 * 0 = t.val / 16; omega
    | ⟨1, _⟩ => show win1_5.index t (1 : Fin 3) * 256 + 1 * r.val = t.val % 16 * 256 + r.val; omega
    | ⟨2, _⟩ => show win1_5.index t (2 : Fin 3) * 2048 + 1 * o.val = o.val; omega

/-- An index of the result is in point t's block iff each coordinate is in the block's range on its axis. -/
theorem pmem_blk (t : Fin cfg1.N) (i : S8x4096x2048.Idx) :
    i ∈ ((cfg1.win 5).blk t).view.set ↔ ∀ a : Fin 3, win1_5.index t a * S1x256x2048.size a ≤ (i a).val
      ∧ (i a).val < win1_5.index t a * S1x256x2048.size a + S1x256x2048.size a := by
  show i ∈ ((View.whole main_v1).slice (win1_5.rect t)).set ↔ _
  rw [View.set_slice_whole, Rect.mem_set_unit]
  exact Iff.rfl

/-- The blocks cover the result: entry (m, r, o) lies in the block (m, r / 256, 0). -/
theorem product_cover (i : S8x4096x2048.Idx) :
    ∃ t : Fin cfg1.N, (cfg1.win 5).flush t = true ∧ i ∈ ((cfg1.win 5).blk t).view.set := by
  have h0 : (i 0).val < 8 := (i 0).isLt
  have h1 : (i 1).val < 4096 := (i 1).isLt
  have h2 : (i 2).val < 2048 := (i 2).isLt
  obtain ⟨t, ht⟩ := pidx_onto ⟨(i 0).val, h0⟩ ⟨(i 1).val / 256, by omega⟩
  have q0 : win1_5.index t (0 : Fin 3) = (i 0).val := congrFun ht 0
  have q1 : win1_5.index t (1 : Fin 3) = (i 1).val / 256 := congrFun ht 1
  have q2 : win1_5.index t (2 : Fin 3) = 0 := congrFun ht 2
  refine ⟨t, flush1_5 t, ?_⟩
  rw [pmem_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 2048 ≤ (i 2).val ∧ (i 2).val < win1_5.index t (2 : Fin 3) * 2048 + 2048; omega

/-- THE RESULT ARRAY after the second region, from the arrays it finds. -/
theorem product_final (c : Dev nD) :
    (pdat V c).arrAt 5 cfg1.N
      = fun i => res (V c main_arg0) (V c main_v0) (V c main_arg3) (V c main_arg4) (V c main_arg6) (i 0) (i 1) (i 2) :=
  (pdat V c).arrAt_eq_of_cover 5 _ (fun t _ => product_flushed V c t) product_cover

end Cert.KernelIdeal.Arrays

end
-- ==== Proof.IdealValue.lean ====
/-
  The idealized kernel's run, read: the result array ends at the specification's array of the launch contents of the
  seven arguments, and the arguments end unchanged.  The second region finds x and the bias arrays as launched (the first
  region does not touch them) and the weight array at the sampled weights the first region left.
-/
import proofs.«116653_j1632087572792_2_alg».proof.Proof.IdealArrays

noncomputable section

namespace Cert.KernelIdeal.Result

open Idealize.ShloMosaic Idealize.ShloMosaic.TcCoe Idealize.SL.Sem
open Cert.KernelIdeal Cert.KernelIdeal.Gen Cert.KernelIdeal.Hand Cert.KernelIdeal.Arrays Cert.SampledDense

variable (m : (ℓ : Loc nD τ sig) → Buf (Elt Ideal) ℓ) (ρ : Dev nD → PrngReg)

/-- What the second region finds in the arrays the first does not stage: the launch contents. -/
theorem found_arg0 (c : Dev nD) : V2 m ρ c main_arg0 = m ((c : Thread nD τ).loc main_arg0) := W2_of_ne m ρ c main_arg0 (by decide)
theorem found_arg3 (c : Dev nD) : V2 m ρ c main_arg3 = m ((c : Thread nD τ).loc main_arg3) := W2_of_ne m ρ c main_arg3 (by decide)
theorem found_arg4 (c : Dev nD) : V2 m ρ c main_arg4 = m ((c : Thread nD τ).loc main_arg4) := W2_of_ne m ρ c main_arg4 (by decide)
theorem found_arg6 (c : Dev nD) : V2 m ρ c main_arg6 = m ((c : Thread nD τ).loc main_arg6) := W2_of_ne m ρ c main_arg6 (by decide)

/-- What it finds in the weight array: the sampled weights of the launch contents of μ, ρ, ε. -/
theorem found_weights (c : Dev nD) :
    V2 m ρ c main_v0 = W (m ((c : Thread nD τ).loc main_arg1)) (m ((c : Thread nD τ).loc main_arg2)) (m ((c : Thread nD τ).loc main_arg5)) :=
  (W2_arr m ρ c 3).trans (weights_final (V1 m ρ) c)

/-- The result array at the end is the specification's. -/
theorem result_eq (c : Dev nD) :
    W4 m ρ c (Proc.devRef .tc main_v1)
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine ((W4_arr m ρ c 5).trans (product_final (V2 m ρ) c)).trans ?_
  rw [found_arg0, found_weights, found_arg3, found_arg4, found_arg6]
  rfl

/-- THE RUN, READ. -/
theorem run : θ_run defs (onTc (τ := τ) (main (F := Ideal))) ⟨m, fun _ => 0, ρ⟩ (fun r => ∀ c : Dev nD,
      r.2.mem ((c.tc : Thread nD τ).loc main_v1)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v1 (by decide))).trans (result_eq m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.KernelIdeal.Result

end
-- ==== Proof.RefValue.lean ====
/-
  The reference program's result, read index by index, is the specification: its weight and bias are the
  reparameterised samples in the host's spelling of softplus, its einsum is the sum over the contracted axis of
  x(m, r, k) · weight(m, k, o), and the bias row is broadcast down the rows.
-/
import proofs.«116653_j1632087572792_2_alg».proof.Proof.Gen.ReferenceIdeal.Read
import proofs.«116653_j1632087572792_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.SampledDense

/-- The reference's sampled weight at an index. -/
theorem ref_weight (x1 x2 x5 : (⟨S8x2048x2048, .f32⟩ : BufTy).Contents (Elt Ideal)) (j : S8x2048x2048.Idx) :
    val_main_v2 (F := Ideal) x1 x2 x5 j = sample (x1 j) (x2 j) (x5 j) := by
  simp only [val_main_v2_apply, val_main_v1_apply, val_main_v0_apply, val_main_call0_v4_apply, val_main_call0_v6_apply,
    val_main_call0_v11_apply, val_main_call0_v1_apply, val_main_call0_v10_apply, val_main_call0_v9_apply,
    val_main_call0_v8_apply, val_main_call0_v7_apply, val_main_call0_v3_apply, val_main_call0_v0_apply,
    val_main_call0_v2_apply, val_main_call0_v5_apply, val_main_call0_cst_apply,
    Ideal.addf_def, Ideal.mulf_def, Ideal.subf_def, Ideal.maximumf_def, Ideal.hostAbsf_def, Ideal.hostNegf_def,
    Ideal.negf_def, Ideal.absf_def, Ideal.hostUnary_exp_def, Ideal.hostUnary_log1p_def, Ideal.ofBits_def,
    Ideal.ofBits_zero_f32, Ideal.cmpf_def]
  rw [host_softplus]; rfl

/-- The reference's sampled bias at an index. -/
theorem ref_bias (x3 x4 x6 : (⟨S8x1x2048, .f32⟩ : BufTy).Contents (Elt Ideal)) (j : S8x1x2048.Idx) :
    val_main_v5 (F := Ideal) x3 x4 x6 j = sample (x3 j) (x4 j) (x6 j) := by
  simp only [val_main_v5_apply, val_main_v4_apply, val_main_v3_apply, val_main_call1_v4_apply, val_main_call1_v6_apply,
    val_main_call1_v11_apply, val_main_call1_v1_apply, val_main_call1_v10_apply, val_main_call1_v9_apply,
    val_main_call1_v8_apply, val_main_call1_v7_apply, val_main_call1_v3_apply, val_main_call1_v0_apply,
    val_main_call1_v2_apply, val_main_call1_v5_apply, val_main_call1_cst_apply,
    Ideal.addf_def, Ideal.mulf_def, Ideal.subf_def, Ideal.maximumf_def, Ideal.hostAbsf_def, Ideal.hostNegf_def,
    Ideal.negf_def, Ideal.absf_def, Ideal.hostUnary_exp_def, Ideal.hostUnary_log1p_def, Ideal.ofBits_def,
    Ideal.ofBits_zero_f32, Ideal.cmpf_def]
  rw [host_softplus]; rfl

/-- The composed index functions of the generated read lemmas are the coordinates' indices. -/
theorem lidx_eq (i : S8x4096x2048.Idx) (k : Fin 2048) :
    lidx_main_v6 i k = ix3 (n0 := 8) (n1 := 4096) (i 0) (i 1) k :=
  funext fun a => Fin.ext (by match a with | ⟨0, _⟩ => rfl | ⟨1, _⟩ => rfl | ⟨2, _⟩ => rfl)
theorem ridx_eq (i : S8x4096x2048.Idx) (k : Fin 2048) :
    ridx_main_v6 i k = ix3 (n0 := 8) (n2 := 2048) (i 0) k (i 2) :=
  funext fun a => Fin.ext (by match a with | ⟨0, _⟩ => rfl | ⟨1, _⟩ => rfl | ⟨2, _⟩ => rfl)
theorem bidx_eq (i : S8x4096x2048.Idx) :
    idx_main_v7 i = ix3 (n0 := 8) (n2 := 2048) (i 0) (0 : Fin 1) (i 2) :=
  funext fun a => Fin.ext (by match a with | ⟨0, _⟩ => rfl | ⟨1, _⟩ => rfl | ⟨2, _⟩ => rfl)

/-- THE REFERENCE IS THE SPECIFICATION. -/
theorem ref_eq (x0 : (⟨S8x4096x2048, .f32⟩ : BufTy).Contents (Elt Ideal)) (x1 x2 : (⟨S8x2048x2048, .f32⟩ : BufTy).Contents (Elt Ideal))
    (x3 x4 : (⟨S8x1x2048, .f32⟩ : BufTy).Contents (Elt Ideal)) (x5 : (⟨S8x2048x2048, .f32⟩ : BufTy).Contents (Elt Ideal))
    (x6 : (⟨S8x1x2048, .f32⟩ : BufTy).Contents (Elt Ideal)) :
    val_main_v8 (F := Ideal) x0 x1 x2 x3 x4 x5 x6 = G x0 x1 x2 x3 x4 x5 x6 := by
  funext i
  rw [val_main_v8_apply, val_main_v6_apply, val_main_v7_apply, ref_bias, bidx_eq]
  simp only [ref_weight, lidx_eq, ridx_eq, Ideal.addf_def]
  rfl

end Cert.ReferenceIdeal.RefValue

end
-- ==== Proof.lean ====
/-
  An ensemble of Bayesian linear layers: for each of 8 members the weights and the bias are sampled by the
  reparameterisation  μ + softplus(ρ)·ε,  and the member's 4096 × 2048 batch is multiplied by the 2048 × 2048 weight
  matrix and the bias row added.  The kernel does it in two pallas_calls — the first builds the sampled weights tile by
  tile (rounded to bf16), the second multiplies one 256-row tile of a member by the member's whole weight matrix and adds
  the bias row, which it computes once per member, at the member's first row tile, into a scratch buffer that the later
  row tiles read back.  The reference is  einsum("mbi,mio->mbo", x, w) + b.

  On the extended reals rounding to bf16 is the identity and both matrix products are the same finite sum, so the two
  programs compute one function (Proof/Spec.lean): no finiteness of the inputs is used.
  * The frames of the two kernel programs: both regions' bodies run at every grid point, the second under the invariant
    "after point t the scratch holds the bias row of t's member" (Proof/IdealProduct.lean, BitsProduct.lean), and the two
    regions are chained by the pipeline library's launch theorem (IdealRun.lean, BitsRun.lean).
  * The reference's frame is its run with the result dropped.
  * The idealization rewrote nothing, so `preserves` is trivial.
  * `algebraic`: the kernel's result array, block by block, is the specification's array (IdealArrays.lean,
    IdealValue.lean), and so is the reference's, index by index (RefValue.lean).
-/
import proofs.«116653_j1632087572792_2_alg».proof.Defs
import proofs.«116653_j1632087572792_2_alg».proof.Proof.Gen.Kernel
import proofs.«116653_j1632087572792_2_alg».proof.Proof.Gen.KernelIdeal
import proofs.«116653_j1632087572792_2_alg».proof.Proof.Gen.ReferenceIdeal
import proofs.«116653_j1632087572792_2_alg».proof.Proof.Gen.ReferenceIdeal.Run
import proofs.«116653_j1632087572792_2_alg».proof.Proof.Gen.ReferenceIdeal.Read
import proofs.«116653_j1632087572792_2_alg».proof.Proof.Gen.Pre_finite_inputs
import proofs.«116653_j1632087572792_2_alg».proof.Proof.BitsRun
import proofs.«116653_j1632087572792_2_alg».proof.Proof.IdealValue
import proofs.«116653_j1632087572792_2_alg».proof.Proof.RefValue
import Idealize.ShloMosaic.Adequacy
import Idealize.ShloMosaic.Init

noncomputable section

namespace Cert.Proof

open Idealize.ShloMosaic Idealize.SL.Sem Cert.SampledDense

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result at the specification's array of the (agreeing) arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq,
    (hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
